-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x4 : Shape := ⟨3, ![4096, 128, 4]⟩
abbrev S4096x16 : Shape := ⟨2, ![4096, 16]⟩
abbrev S524288x4 : Shape := ⟨2, ![524288, 4]⟩
abbrev S16x64 : Shape := ⟨2, ![16, 64]⟩
abbrev S64x16 : Shape := ⟨2, ![64, 16]⟩
abbrev S31x64 : Shape := ⟨2, ![31, 64]⟩
abbrev S64x64 : Shape := ⟨2, ![64, 64]⟩
abbrev S64x3 : Shape := ⟨2, ![64, 3]⟩
abbrev S_ : Shape := ⟨0, ![]⟩

class Facts : Prop where
  bcast_S_S4096x16 : S_.BroadcastsInDim S4096x16 (![] : Fin 0 → Fin S4096x16.rank)
  reducesTo_S4096x16_S_d0_1 : S4096x16.ReducesTo [0, 1] S_
  h_S_ : 0 < S_.numel
  bcast_S_S524288x4 : S_.BroadcastsInDim S524288x4 (![] : Fin 0 → Fin S524288x4.rank)
  reducesTo_S524288x4_S_d0_1 : S524288x4.ReducesTo [0, 1] S_
  bcast_S_S16x64 : S_.BroadcastsInDim S16x64 (![] : Fin 0 → Fin S16x64.rank)
  reducesTo_S16x64_S_d0_1 : S16x64.ReducesTo [0, 1] S_
  bcast_S_S64x16 : S_.BroadcastsInDim S64x16 (![] : Fin 0 → Fin S64x16.rank)
  reducesTo_S64x16_S_d0_1 : S64x16.ReducesTo [0, 1] S_
  bcast_S_S31x64 : S_.BroadcastsInDim S31x64 (![] : Fin 0 → Fin S31x64.rank)
  reducesTo_S31x64_S_d0_1 : S31x64.ReducesTo [0, 1] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_arg5 : FVec F S31x64 .f32) (main_arg6 : FVec F S64x64 .f32) (main_arg7 : FVec F S64x3 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S31x64 .f32 := Host.absf main_arg5
  let main_cst_6 : FVec F S_ .f32 := constant S_ .f32 0x7F800000#32
  let main_v20 : FVec F S31x64 .f32 := broadcastInDim S31x64 ![] bcast_S_S31x64 main_cst_6
  let main_v21 : IVec S31x64 1 := cmpf .olt main_v19 main_v20
  let main_c_7 : IVec S_ 1 := constantI S_ 1 1#1
  let main_v22 : IVec S_ 1 := (fun x v => Host.reduce IntOp.andi x v reducesTo_S31x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x3 .f32 := Host.absf main_arg7
  let main_cst_10 : FVec F S_ .f32 := constant S_ .f32 0x7F800000#32
  let main_v30 : FVec F S64x3 .f32 := broadcastInDim S64x3 ![] bcast_S_S64x3 main_cst_10
  let main_v31 : IVec S64x3 1 := cmpf .olt main_v29 main_v30
  let main_c_11 : IVec S_ 1 := constantI S_ 1 1#1
  let main_v32 : IVec S_ 1 := (fun x v => Host.reduce IntOp.andi x v reducesTo_S64x3_S_d0_1 h_S_) main_v31 main_c_11
  let main_v33 : IVec S_ 1 := andi main_v28 main_v32
  main_v33

def fn {F : FTy → Type} [FloatOps F] (main_arg0 : IVec S4096x128x4 32) (main_arg1 : FVec F S4096x16 .f32) (main_arg2 : FVec F S524288x4 .f32) (main_arg3 : FVec F S16x64 .f32) (main_arg4 : FVec F S64x16 .f32) (main_arg5 : FVec F S31x64 .f32) (main_arg6 : FVec F S64x64 .f32) (main_arg7 : FVec F S64x3 .f32) : IVec S_ 1 :=
  let main_v0 : FVec F S4096x16 .f32 := Host.absf main_arg1
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 1 := constantI S_ 1 1#1
  let main_v3 : IVec S_ 1 := (fun x v => Host.reduce IntOp.andi x v reducesTo_S4096x16_S_d0_1 h_S_) main_v2 main_c
  let main_v4 : FVec F S524288x4 .f32 := Host.absf main_arg2
  let main_cst_0 : FVec F S_ .f32 := constant S_ .f32 0x7F800000#32
  let main_v5 : FVec F S524288x4 .f32 := broadcastInDim S524288x4 ![] bcast_S_S524288x4 main_cst_0
  let main_v6 : IVec S524288x4 1 := cmpf .olt main_v4 main_v5
  let main_c_1 : IVec S_ 1 := constantI S_ 1 1#1
  let main_v7 : IVec S_ 1 := (fun x v => Host.reduce IntOp.andi x v reducesTo_S524288x4_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_arg6 main_arg7 main_v13 main_v16
-- ==== Kernel.lean ====
abbrev S4096x128x4 : Shape := ⟨3, ![4096, 128, 4]⟩
abbrev S4096x16 : Shape := ⟨2, ![4096, 16]⟩
abbrev S524288x4 : Shape := ⟨2, ![524288, 4]⟩
abbrev S16x64 : Shape := ⟨2, ![16, 64]⟩
abbrev S64x16 : Shape := ⟨2, ![64, 16]⟩
abbrev S31x64 : Shape := ⟨2, ![31, 64]⟩
abbrev S64x64 : Shape := ⟨2, ![64, 64]⟩
abbrev S64x3 : Shape := ⟨2, ![64, 3]⟩
abbrev S_ : Shape := ⟨0, ![]⟩
abbrev S4096x128x4x1 : Shape := ⟨4, ![4096, 128, 4, 1]⟩
abbrev S4096x128x4x4 : Shape := ⟨4, ![4096, 128, 4, 4]⟩
abbrev S4096x128x16 : Shape := ⟨3, ![4096, 128, 16]⟩
abbrev S15x64 : Shape := ⟨2, ![15, 64]⟩
abbrev S4096x128 : Shape := ⟨2, ![4096, 128]⟩
abbrev S4096x3x128 : Shape := ⟨3, ![4096, 3, 128]⟩
abbrev S128x128x16 : Shape := ⟨3, ![128, 128, 16]⟩
abbrev S128x16 : Shape := ⟨2, ![128, 16]⟩
abbrev S128x128 : Shape := ⟨2, ![128, 128]⟩
abbrev S128x3x128 : Shape := ⟨3, ![128, 3, 128]⟩
abbrev S16x128x16 : Shape := ⟨3, ![16, 128, 16]⟩
abbrev S2048x16 : Shape := ⟨2, ![2048, 16]⟩
abbrev S2048x64 : Shape := ⟨2, ![2048, 64]⟩
abbrev S16x128x1 : Shape := ⟨3, ![16, 128, 1]⟩
abbrev S16x128 : Shape := ⟨2, ![16, 128]⟩
abbrev S16 : Shape := ⟨1, ![16]⟩
abbrev S16x1 : Shape := ⟨2, ![16, 1]⟩
abbrev S16x128x15 : Shape := ⟨3, ![16, 128, 15]⟩
abbrev S16x16 : Shape := ⟨2, ![16, 16]⟩
abbrev S16x1x64 : Shape := ⟨3, ![16, 1, 64]⟩
abbrev S16x128x64 : Shape := ⟨3, ![16, 128, 64]⟩
abbrev S2048x15 : Shape := ⟨2, ![2048, 15]⟩
abbrev S2048x3 : Shape := ⟨2, ![2048, 3]⟩
abbrev S16x128x3 : Shape := ⟨3, ![16, 128, 3]⟩
abbrev S16x3x128 : Shape := ⟨3, ![16, 3, 128]⟩
abbrev S4096x128x3 : Shape := ⟨3, ![4096, 128, 3]⟩

abbrev nBuf : Space → Nat
  | .hbm => 24
  | .vmem => 14
  | .smem => 0
  | _ => 0

abbrev bufTy : (tb : Table) → Fin (tcTables nBuf tb) → BufTy
  | .hbm, ⟨0, _⟩ => ⟨S4096x128x4, .i32⟩
  | .hbm, ⟨1, _⟩ => ⟨S4096x16, .f32⟩
  | .hbm, ⟨2, _⟩ => ⟨S524288x4, .f32⟩
  | .hbm, ⟨3, _⟩ => ⟨S16x64, .f32⟩
  | .hbm, ⟨4, _⟩ => ⟨S64x16, .f32⟩
  | .hbm, ⟨5, _⟩ => ⟨S31x64, .f32⟩
  | .hbm, ⟨6, _⟩ => ⟨S64x64, .f32⟩
  | .hbm, ⟨7, _⟩ => ⟨S64x3, .f32⟩
  | .hbm, ⟨8, _⟩ => ⟨S_, .i32⟩
  | .hbm, ⟨9, _⟩ => ⟨S4096x128x4, .i32⟩
  | .hbm, ⟨10, _⟩ => ⟨S4096x128x4, .i1⟩
  | .hbm, ⟨11, _⟩ => ⟨S_, .i32⟩
  | .hbm, ⟨12, _⟩ => ⟨S4096x128x4, .i32⟩
  | .hbm, ⟨13, _⟩ => ⟨S4096x128x4, .i32⟩
  | .hbm, ⟨14, _⟩ => ⟨S4096x128x4, .i32⟩
  | .hbm, ⟨15, _⟩ => ⟨S4096x128x4x1, .i32⟩
  | .hbm, ⟨16, _⟩ => ⟨S4096x128x4x4, .f32⟩
  | .hbm, ⟨17, _⟩ => ⟨S4096x128x16, .f32⟩
  | .hbm, ⟨18, _⟩ => ⟨S4096x128x16, .bf16⟩
  | .hbm, ⟨19, _⟩ => ⟨S16x64, .f32⟩
  | .hbm, ⟨20, _⟩ => ⟨S15x64, .f32⟩
  | .hbm, ⟨21, _⟩ => ⟨S4096x128, .f32⟩
  | .hbm, ⟨22, _⟩ => ⟨S4096x3x128, .f32⟩
  | .hbm, ⟨23, _⟩ => ⟨S4096x128x3, .f32⟩
  | .local _ .vmem, ⟨0, _⟩ => ⟨S128x128x16, .bf16⟩
  | .local _ .vmem, ⟨1, _⟩ => ⟨S128x128x16, .bf16⟩
  | .local _ .vmem, ⟨2, _⟩ => ⟨S128x16, .f32⟩
  | .local _ .vmem, ⟨3, _⟩ => ⟨S128x16, .f32⟩
  | .local _ .vmem, ⟨4, _⟩ => ⟨S16x64, .f32⟩
  | .local _ .vmem, ⟨5, _⟩ => ⟨S64x16, .f32⟩
  | .local _ .vmem, ⟨6, _⟩ => ⟨S16x64, .f32⟩
  | .local _ .vmem, ⟨7, _⟩ => ⟨S15x64, .f32⟩
  | .local _ .vmem, ⟨8, _⟩ => ⟨S64x64, .f32⟩
  | .local _ .vmem, ⟨9, _⟩ => ⟨S64x3, .f32⟩
  | .local _ .vmem, ⟨10, _⟩ => ⟨S128x128, .f32⟩
  | .local _ .vmem, ⟨11, _⟩ => ⟨S128x128, .f32⟩
  | .local _ .vmem, ⟨12, _⟩ => ⟨S128x3x128, .f32⟩
  | .local _ .vmem, ⟨13, _⟩ => ⟨S128x3x128, .f32⟩
  | _, _ => ⟨S4096x128x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c16_i32 : BitVec 32 := 16#32
  let v15 : BitVec 32 := Scalar.muli arg11 c16_i32
  v15
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let c16_i32 : BitVec 32 := 16#32
  let v15 : BitVec 32 := Scalar.muli arg11 c16_i32
  let v16 : BitVec 32 := v15
  let v17 : Index := Scalar.indexCast v16
  let c0_12 : Index := 0#32
  let c0_13 : Index := 0#32
  ![v17.toNat, 0, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c16_i32 : BitVec 32 := 16#32
  let v15 : BitVec 32 := Scalar.muli arg11 c16_i32
  let v16 : BitVec 32 := v15
  let v40 : Index := Scalar.indexCast v16
  let c0_19 : Index := 0#32
  ![v40.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c16_i32 : BitVec 32 := 16#32
  let v15 : BitVec 32 := Scalar.muli arg11 c16_i32
  let v16 : BitVec 32 := v15
  let v43 : Index := Scalar.indexCast v16
  let c0_20 : Index := 0#32
  ![v43.toNat, 0]
def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let c16_i32 : BitVec 32 := 16#32
  let v15 : BitVec 32 := Scalar.muli arg11 c16_i32
  let v16 : BitVec 32 := v15
  let v67 : Index := Scalar.indexCast v16
  let c0_27 : Index := 0#32
  let c0_28 : Index := 0#32
  ![v67.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S15x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S4096x128x4 : S_.BroadcastsInDim S4096x128x4 (![] : Fin 0 → Fin S4096x128x4.rank)
  bcast_S4096x128x4_S4096x128x4x1_0_1_2 : S4096x128x4.BroadcastsInDim S4096x128x4x1 (![0, 1, 2] : Fin 3 → Fin S4096x128x4x1.rank)
  shapeCasts_S4096x128x4x4_S4096x128x16 : S4096x128x4x4.ShapeCasts S4096x128x16
  bitsLt_bf16_f32 : FTy.bits .bf16 < FTy.bits .f32
  slices_S31x64_S16x64_0_0 : S31x64.Slices ![0, 0] S16x64
  slices_S31x64_S15x64_16_0 : S31x64.Slices ![16, 0] S15x64
  inb_S16x64_S16x64_0_0 : ∀ a, (![0, 0] : Fin 2 → Nat) a + S16x64.size a ≤ S16x64.size a
  h_S16x64 : 0 < S16x64.numel
  inb_S64x16_S64x16_0_0 : ∀ a, (![0, 0] : Fin 2 → Nat) a + S64x16.size a ≤ S64x16.size a
  h_S64x16 : 0 < S64x16.numel
  shapeCasts_S16x64_S16x64 : S16x64.ShapeCasts S16x64
  inb_S15x64_S15x64_0_0 : ∀ a, (![0, 0] : Fin 2 → Nat) a + S15x64.size a ≤ S15x64.size a
  h_S15x64 : 0 < S15x64.numel
  shapeCasts_S15x64_S15x64 : S15x64.ShapeCasts S15x64
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  h_S16x128x16 : 0 < S16x128x16.numel
  shapeCasts_S16x128x16_S16x128x16 : S16x128x16.ShapeCasts S16x128x16
  shapeCasts_S16x128x16_S2048x16 : S16x128x16.ShapeCasts S2048x16
  shapeCasts_S2048x16_S16x128x16 : S2048x16.ShapeCasts S16x128x16
  slices_S16x128x16_o0_0_0_S16x128x1 : S16x128x16.Slices ![0, 0, 0] S16x128x1
  shapeCasts_S16x128x1_S16x128 : S16x128x1.ShapeCasts S16x128
  reduces_S16x128_S16 : S16x128.Reduces [1] S16
  shapeCasts_S16_S16x1 : S16.ShapeCasts S16x1
  broadcasts_S16x1_S16x128 : S16x1.Broadcasts S16x128
  h_S16x128 : 0 < S16x128.numel
  slices_S16x128x16_o0_0_1_S16x128x15 : S16x128x16.Slices ![0, 0, 1] S16x128x15
  h_S16x16 : 0 < S16x16.numel
  shapeCasts_S16x64_S16x1x64 : S16x64.ShapeCasts S16x1x64
  shapeCasts_S16x1x64_S16x1x64 : S16x1x64.ShapeCasts S16x1x64
  broadcasts_S16x1x64_S16x128x64 : S16x1x64.Broadcasts S16x128x64
  shapeCasts_S16x128x15_S2048x15 : S16x128x15.ShapeCasts S2048x15
  shapeCasts_S2048x64_S16x128x64 : S2048x64.ShapeCasts S16x128x64
  shapeCasts_S16x128x64_S2048x64 : S16x128x64.ShapeCasts S2048x64
  shapeCasts_S2048x3_S16x128x3 : S2048x3.ShapeCasts S16x128x3
  transposes_S16x128x3_p0_2_1_S16x3x128 : S16x128x3.Transposes [0, 2, 1] S16x3x128
  h_S16x3x128 : 0 < S16x3x128.numel
  transposes_S4096x3x128_S4096x128x3_0_2_1 : S4096x3x128.Transposes [0, 2, 1] S4096x128x3
  gather_S524288x4_S4096x128x4x1_S4096x128x4x4_3_0_n_n_0_3_14_wf : GatherDims.WF S524288x4 S4096x128x4x1 S4096x128x4x4 [3] [0] [] [0] [] 3 ![1, 4]
  dot_S2048x16_S16x64_S2048x64_1_0_0_1_n_n_wf : DotDims.WF S2048x16 S16x64 S2048x64 [1] [0] [0] [1] [] []
  dot_S2048x64_S64x16_S2048x16_1_0_0_1_n_n_wf : DotDims.WF S2048x64 S64x16 S2048x16 [1] [0] [0] [1] [] []
  dot_S16x16_S16x64_S16x64_1_0_0_1_n_n_wf : DotDims.WF S16x16 S16x64 S16x64 [1] [0] [0] [1] [] []
  dot_S2048x15_S15x64_S2048x64_1_0_0_1_n_n_wf : DotDims.WF S2048x15 S15x64 S2048x64 [1] [0] [0] [1] [] []
  dot_S2048x64_S64x64_S2048x64_1_0_0_1_n_n_wf : DotDims.WF S2048x64 S64x64 S2048x64 [1] [0] [0] [1] [] []
  dot_S2048x64_S64x3_S2048x3_1_0_0_1_n_n_wf : DotDims.WF S2048x64 S64x3 S2048x3 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S16x128x16.size a ≤ S128x128x16.size a
  k0_off2_inb : ∀ k0_t1 : Fin k0_t1_loop.trips, ∀ a, (k0_off2 k0_t1) a + S16x128.size a ≤ S128x128.size a
  k0_off3_inb : ∀ k0_t1 : Fin k0_t1_loop.trips, ∀ a, (k0_off3 k0_t1) a + S16x16.size a ≤ S128x16.size a
  k0_off4_inb : ∀ k0_t1 : Fin k0_t1_loop.trips, ∀ a, (k0_off4 k0_t1) a + S16x3x128.size a ≤ S128x3x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x16.size a ≤ S4096x128x16.size a
  hwx0_0 : ∀ i : grid0.Coords, EltTy.bits .bf16 = 32 ∨ (Rect.block (s := S4096x128x16) S128x128x16.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S4096x16.size a
  hwx0_1 : ∀ i : grid0.Coords, EltTy.bits .f32 = 32 ∨ (Rect.block (s := S4096x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x64.size a ≤ S16x64.size a
  hwx0_4 : ∀ i : grid0.Coords, EltTy.bits .f32 = 32 ∨ (Rect.block (s := S16x64) S16x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S15x64.size a ≤ S15x64.size a
  hwx0_5 : ∀ i : grid0.Coords, EltTy.bits .f32 = 32 ∨ (Rect.block (s := S15x64) S15x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .f32 = 32 ∨ (Rect.block (s := S64x3) S64x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S4096x128.size a
  hwx0_8 : ∀ i : grid0.Coords, EltTy.bits .f32 = 32 ∨ (Rect.block (s := S4096x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x3x128.size a ≤ S4096x3x128.size a
  hwx0_9 : ∀ i : grid0.Coords, EltTy.bits .f32 = 32 ∨ (Rect.block (s := S4096x3x128) S128x3x128.size (cc0_transform_9 i) (hinb0_9 i)).WholeWords (EltTy.packing .f32)

variable [Facts₀]

def gather_S524288x4_S4096x128x4x1_S4096x128x4x4_3_0_n_n_0_3_14 : GatherDims S524288x4 S4096x128x4x1 S4096x128x4x4 where
  offsetDims := [3]
  collapsedSliceDims := [0]
  operandBatchingDims := []
  startIndicesBatchingDims := []
  startIndexMap := [0]
  indexVectorDim := 3
  sliceSizes := ![1, 4]
  wf := gather_S524288x4_S4096x128x4x1_S4096x128x4x4_3_0_n_n_0_3_14_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S16x16_S16x64_S16x64_1_0_0_1_n_n : DotDims S16x16 S16x64 S16x64 where
  lhsContracting := [1]
  rhsContracting := [0]
  lhsNonContracting := [0]
  rhsNonContracting := [1]
  lhsBatch := []
  rhsBatch := []
  wf := dot_S16x16_S16x64_S16x64_1_0_0_1_n_n_wf
def dot_S2048x15_S15x64_S2048x64_1_0_0_1_n_n : DotDims S2048x15 S15x64 S2048x64 where
  lhsContracting := [1]
  rhsContracting := [0]
  lhsNonContracting := [0]
  rhsNonContracting := [1]
  lhsBatch := []
  rhsBatch := []
  wf := dot_S2048x15_S15x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf

abbrev win0_0 : Pipeline.Window sig grid0 :=
  Pipeline.Window.ofSpec (Memref.whole main_v8) S128x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S15x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S128x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S128x3x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128x4 : Shape := ⟨3, ![4096, 128, 4]⟩
abbrev S4096x16 : Shape := ⟨2, ![4096, 16]⟩
abbrev S524288x4 : Shape := ⟨2, ![524288, 4]⟩
abbrev S16x64 : Shape := ⟨2, ![16, 64]⟩
abbrev S64x16 : Shape := ⟨2, ![64, 16]⟩
abbrev S31x64 : Shape := ⟨2, ![31, 64]⟩
abbrev S64x64 : Shape := ⟨2, ![64, 64]⟩
abbrev S64x3 : Shape := ⟨2, ![64, 3]⟩
abbrev S_ : Shape := ⟨0, ![]⟩
abbrev S4096x128x4x1 : Shape := ⟨4, ![4096, 128, 4, 1]⟩
abbrev S4096x128x4x4 : Shape := ⟨4, ![4096, 128, 4, 4]⟩
abbrev S4096x128x16 : Shape := ⟨3, ![4096, 128, 16]⟩
abbrev S4096x128x64 : Shape := ⟨3, ![4096, 128, 64]⟩
abbrev S4096x128x1 : Shape := ⟨3, ![4096, 128, 1]⟩
abbrev S4096x128 : Shape := ⟨2, ![4096, 128]⟩
abbrev S4096 : Shape := ⟨1, ![4096]⟩
abbrev S4096x1 : Shape := ⟨2, ![4096, 1]⟩
abbrev S4096x128x15 : Shape := ⟨3, ![4096, 128, 15]⟩
abbrev S4096x1x16 : Shape := ⟨3, ![4096, 1, 16]⟩
abbrev S4096x128x31 : Shape := ⟨3, ![4096, 128, 31]⟩
abbrev S4096x128x3 : Shape := ⟨3, ![4096, 128, 3]⟩

abbrev nBuf : Space → Nat
  | .hbm => 60
  | .vmem => 0
  | .smem => 0
  | _ => 0

abbrev bufTy : (tb : Table) → Fin (tcTables nBuf tb) → BufTy
  | .hbm, ⟨0, _⟩ => ⟨S4096x128x4, .i32⟩
  | .hbm, ⟨1, _⟩ => ⟨S4096x16, .f32⟩
  | .hbm, ⟨2, _⟩ => ⟨S524288x4, .f32⟩
  | .hbm, ⟨3, _⟩ => ⟨S16x64, .f32⟩
  | .hbm, ⟨4, _⟩ => ⟨S64x16, .f32⟩
  | .hbm, ⟨5, _⟩ => ⟨S31x64, .f32⟩
  | .hbm, ⟨6, _⟩ => ⟨S64x64, .f32⟩
  | .hbm, ⟨7, _⟩ => ⟨S64x3, .f32⟩
  | .hbm, ⟨8, _⟩ => ⟨S_, .i32⟩
  | .hbm, ⟨9, _⟩ => ⟨S4096x128x4, .i32⟩
  | .hbm, ⟨10, _⟩ => ⟨S4096x128x4, .i1⟩
  | .hbm, ⟨11, _⟩ => ⟨S_, .i32⟩
  | .hbm, ⟨12, _⟩ => ⟨S4096x128x4, .i32⟩
  | .hbm, ⟨13, _⟩ => ⟨S4096x128x4, .i32⟩
  | .hbm, ⟨14, _⟩ => ⟨S4096x128x4, .i32⟩
  | .hbm, ⟨15, _⟩ => ⟨S4096x128x4x1, .i32⟩
  | .hbm, ⟨16, _⟩ => ⟨S4096x128x4x4, .f32⟩
  | .hbm, ⟨17, _⟩ => ⟨S4096x128x16, .f32⟩
  | .hbm, ⟨18, _⟩ => ⟨S4096x128x64, .f32⟩
  | .hbm, ⟨19, _⟩ => ⟨S_, .f32⟩
  | .hbm, ⟨20, _⟩ => ⟨S4096x128x64, .f32⟩
  | .hbm, ⟨21, _⟩ => ⟨S4096x128x64, .f32⟩
  | .hbm, ⟨22, _⟩ => ⟨S4096x128x16, .f32⟩
  | .hbm, ⟨23, _⟩ => ⟨S4096x128x1, .f32⟩
  | .hbm, ⟨24, _⟩ => ⟨S4096x128, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x128, .f32⟩
  | .hbm, ⟨38, _⟩ => ⟨S4096x128, .f32⟩
  | .hbm, ⟨39, _⟩ => ⟨S4096x128x15, .f32⟩
  | .hbm, ⟨40, _⟩ => ⟨S4096x1x16, .f32⟩
  | .hbm, ⟨41, _⟩ => ⟨S4096x128x16, .f32⟩
  | .hbm, ⟨42, _⟩ => ⟨S4096x128x31, .f32⟩
  | .hbm, ⟨43, _⟩ => ⟨S4096x128x64, .f32⟩
  | .hbm, ⟨44, _⟩ => ⟨S_, .f32⟩
  | .hbm, ⟨45, _⟩ => ⟨S4096x128x64, .f32⟩
  | .hbm, ⟨46, _⟩ => ⟨S4096x128x64, .f32⟩
  | .hbm, ⟨47, _⟩ => ⟨S4096x128x64, .f32⟩
  | .hbm, ⟨48, _⟩ => ⟨S_, .f32⟩
  | .hbm, ⟨49, _⟩ => ⟨S4096x128x64, .f32⟩
  | .hbm, ⟨50, _⟩ => ⟨S4096x128x64, .f32⟩
  | .hbm, ⟨51, _⟩ => ⟨S4096x128x3, .f32⟩
  | .hbm, ⟨52, _⟩ => ⟨S4096x128x3, .f32⟩
  | .hbm, ⟨53, _⟩ => ⟨S4096x128x3, .f32⟩
  | .hbm, ⟨54, _⟩ => ⟨S_, .f32⟩
  | .hbm, ⟨55, _⟩ => ⟨S4096x128x3, .f32⟩
  | .hbm, ⟨56, _⟩ => ⟨S4096x128x3, .f32⟩
  | .hbm, ⟨57, _⟩ => ⟨S_, .f32⟩
  | .hbm, ⟨58, _⟩ => ⟨S4096x128x3, .f32⟩
  | .hbm, ⟨59, _⟩ => ⟨S4096x128x3, .f32⟩
  | _, _ => ⟨S4096x128x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_cst : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_cst : Ref sig .tc := ⟨.hbm, 44, rfl⟩
abbrev main_call1_v0 : Ref sig .tc := ⟨.hbm, 45, rfl⟩
abbrev main_v29 : Ref sig .tc := ⟨.hbm, 46, rfl⟩
abbrev main_v30 : Ref sig .tc := ⟨.hbm, 47, rfl⟩
abbrev main_call2_cst : Ref sig .tc := ⟨.hbm, 48, rfl⟩
abbrev main_call2_v0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_3 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S_S4096x128x4 : S_.BroadcastsInDim S4096x128x4 (![] : Fin 0 → Fin S4096x128x4.rank)
  bcast_S4096x128x4_S4096x128x4x1_0_1_2 : S4096x128x4.BroadcastsInDim S4096x128x4x1 (![0, 1, 2] : Fin 3 → Fin S4096x128x4x1.rank)
  shapeCasts_S4096x128x4x4_S4096x128x16 : S4096x128x4x4.ShapeCasts S4096x128x16
  bcast_S_S4096x128x64 : S_.BroadcastsInDim S4096x128x64 (![] : Fin 0 → Fin S4096x128x64.rank)
  slices_S4096x128x16_S4096x128x1_0_0_0 : S4096x128x16.Slices ![0, 0, 0] S4096x128x1
  shapeCasts_S4096x128x1_S4096x128 : S4096x128x1.ShapeCasts S4096x128
  reducesTo_S4096x128_S4096_d1 : S4096x128.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  slices_S4096x128x16_S4096x128x15_0_0_1 : S4096x128x16.Slices ![0, 0, 1] S4096x128x15
  bcast_S4096x16_S4096x1x16_0_2 : S4096x16.BroadcastsInDim S4096x1x16 (![0, 2] : Fin 2 → Fin S4096x1x16.rank)
  bcast_S4096x1x16_S4096x128x16_0_1_2 : S4096x1x16.BroadcastsInDim S4096x128x16 (![0, 1, 2] : Fin 3 → Fin S4096x128x16.rank)
  concatenates_S4096x128x16_S4096x128x15_S4096x128x31_d2 : Shape.Concatenates [S4096x128x16, S4096x128x15] S4096x128x31 2
  bcast_S_S4096x128x3 : S_.BroadcastsInDim S4096x128x3 (![] : Fin 0 → Fin S4096x128x3.rank)
  gather_S524288x4_S4096x128x4x1_S4096x128x4x4_3_0_n_n_0_3_14_wf : GatherDims.WF S524288x4 S4096x128x4x1 S4096x128x4x4 [3] [0] [] [0] [] 3 ![1, 4]
  dot_S4096x128x16_S16x64_S4096x128x64_2_0_01_1_n_n_wf : DotDims.WF S4096x128x16 S16x64 S4096x128x64 [2] [0] [0, 1] [1] [] []
  dot_S4096x128x64_S64x16_S4096x128x16_2_0_01_1_n_n_wf : DotDims.WF S4096x128x64 S64x16 S4096x128x16 [2] [0] [0, 1] [1] [] []
  dot_S4096x128x31_S31x64_S4096x128x64_2_0_01_1_n_n_wf : DotDims.WF S4096x128x31 S31x64 S4096x128x64 [2] [0] [0, 1] [1] [] []
  dot_S4096x128x64_S64x64_S4096x128x64_2_0_01_1_n_n_wf : DotDims.WF S4096x128x64 S64x64 S4096x128x64 [2] [0] [0, 1] [1] [] []
  dot_S4096x128x64_S64x3_S4096x128x3_2_0_01_1_n_n_wf : DotDims.WF S4096x128x64 S64x3 S4096x128x3 [2] [0] [0, 1] [1] [] []

variable [Facts₀]

def gather_S524288x4_S4096x128x4x1_S4096x128x4x4_3_0_n_n_0_3_14 : GatherDims S524288x4 S4096x128x4x1 S4096x128x4x4 where
  offsetDims := [3]
  collapsedSliceDims := [0]
  operandBatchingDims := []
  startIndicesBatchingDims := []
  startIndexMap := [0]
  indexVectorDim := 3
  sliceSizes := ![1, 4]
  wf := gather_S524288x4_S4096x128x4x1_S4096x128x4x4_3_0_n_n_0_3_14_wf
def dot_S4096x128x16_S16x64_S4096x128x64_2_0_01_1_n_n : DotDims S4096x128x16 S16x64 S4096x128x64 where
  lhsContracting := [2]
  rhsContracting := [0]
  lhsNonContracting := [0, 1]
  rhsNonContracting := [1]
  lhsBatch := []
  rhsBatch := []
  wf := dot_S4096x128x16_S16x64_S4096x128x64_2_0_01_1_n_n_wf
def dot_S4096x128x64_S64x16_S4096x128x16_2_0_01_1_n_n : DotDims S4096x128x64 S64x16 S4096x128x16 where
  lhsContracting := [2]
  rhsContracting := [0]
  lhsNonContracting := [0, 1]
  rhsNonContracting := [1]
  lhsBatch := []
  rhsBatch := []
  wf := dot_S4096x128x64_S64x16_S4096x128x16_2_0_01_1_n_n_wf
def dot_S4096x128x31_S31x64_S4096x128x64_2_0_01_1_n_n : DotDims S4096x128x31 S31x64 S4096x128x64 where
  lhsContracting := [2]
  rhsContracting := [0]
  lhsNonContracting := [0, 1]
  rhsNonContracting := [1]
  lhsBatch := []
  rhsBatch := []
  wf := dot_S4096x128x31_S31x64_S4096x128x64_2_0_01_1_n_n_wf
def dot_S4096x128x64_S64x64_S4096x128x64_2_0_01_1_n_n : DotDims S4096x128x64 S64x64 S4096x128x64 where
  lhsContracting := [2]
  rhsContracting := [0]
  lhsNonContracting := [0, 1]
  rhsNonContracting := [1]
  lhsBatch := []
  rhsBatch := []
  wf := dot_S4096x128x64_S64x64_S4096x128x64_2_0_01_1_n_n_wf
def dot_S4096x128x64_S64x3_S4096x128x3_2_0_01_1_n_n : DotDims S4096x128x64 S64x3 S4096x128x3 where
  lhsContracting := [2]
  rhsContracting := [0]
  lhsNonContracting := [0, 1]
  rhsNonContracting := [1]
  lhsBatch := []
  rhsBatch := []
  wf := dot_S4096x128x64_S64x3_S4096x128x3_2_0_01_1_n_n_wf

class Facts : Prop extends Facts₀ where

variable [Facts]
-- ==== Proof.Spec.lean ====
/-
  What the network computes, sample by sample, over the extended reals.

  A ray `b` has 128 samples; sample `(b, n)` has a feature row `x` of 16 entries (four table rows of four entries, looked
  up by the sample's four indices and laid side by side). The density net maps a feature row to 16 numbers,
  `hid W0 W1 x o = ∑ₕ relu (∑_f x f · W0 f h) · W1 h o`. Entry 0 of that row is the sample's logit; the densities of a
  ray are the softmax of its 128 logits, shifted by their largest entry (`soft`). Entries 1 … 15 (`geo`) feed the colour
  net together with the ray's 16 direction numbers: its first layer is the sum of a direction part and a geometry part
  (the first 16 and the last 15 rows of its 31-row weight matrix), followed by two more layers and the logistic
  function (`col`).
-/
import Idealize.ShloMosaic.PureOps.Ideal
import Idealize.ShloMosaic.Lib.ValueIdx

noncomputable section

namespace Cert.Spec

open Idealize.ShloMosaic Idealize.ShloMosaic.ValueIdx

/-- The value of the single-precision zero word. -/
abbrev z32 : EReal := Ideal.ofBits .f32 0x00000000#32
/-- The value of the single-precision word of −∞. -/
abbrev ninf : EReal := Ideal.ofBits .f32 0xFF800000#32

/-- The larger of `x` and zero. -/
def relu (x : EReal) : EReal := max x z32

/-- The density net on one feature row: 16 → 64 → 16, the larger-of-zero between the layers. -/
def hid (W0 : Fin 16 → Fin 64 → EReal) (W1 : Fin 64 → Fin 16 → EReal) (x : Fin 16 → EReal) (o : Fin 16) : EReal :=
  ∑ h : Fin 64, relu (∑ f : Fin 16, x f * W0 f h) * W1 h o

/-- The largest entry of a ray's row of logits, folded from `lo`. -/
def rowMax (lo : EReal) (x : Fin 128 → EReal) : EReal := (Finset.univ : Finset (Fin 128)).fold max lo x

/-- The softmax of a ray's row of logits, shifted by its largest entry. -/
def soft (lo : EReal) (x : Fin 128 → EReal) (q : Fin 128) : EReal :=
  Ideal.div (Ideal.exp (x q - rowMax lo x)) (∑ k, Ideal.exp (x k - rowMax lo x))

/-- Entries 1 … 15 of a row of 16. -/
def geo (y : Fin 16 → EReal) (g : Fin 15) : EReal := y ⟨g.val + 1, by omega⟩

/-- The colour net on one sample: the direction part plus the geometry part, two more layers, the logistic function. -/
def col (C0d : Fin 16 → Fin 64 → EReal) (C0g : Fin 15 → Fin 64 → EReal) (C1 : Fin 64 → Fin 64 → EReal)
    (C2 : Fin 64 → Fin 3 → EReal) (dv : Fin 16 → EReal) (gv : Fin 15 → EReal) (c : Fin 3) : EReal :=
  Ideal.logistic (∑ j : Fin 64,
    relu (∑ i : Fin 64, relu ((∑ a : Fin 16, dv a * C0d a i) + ∑ b : Fin 15, gv b * C0g b i) * C1 i j) * C2 j c)

/-- A two-axis array read as a matrix. -/
def mat {a b : ℕ} (w : (⟨2, ![a, b]⟩ : Shape).Idx → EReal) (p : Fin a) (q : Fin b) : EReal := w (ix2 p q)

/-- The first 16 rows of the colour net's first weight matrix. -/
def top16 (w : (⟨2, ![31, 64]⟩ : Shape).Idx → EReal) (a : Fin 16) (i : Fin 64) : EReal := w (ix2 (⟨a.val, by omega⟩ : Fin 31) i)
/-- Its last 15 rows. -/
def bot15 (w : (⟨2, ![31, 64]⟩ : Shape).Idx → EReal) (b : Fin 15) (i : Fin 64) : EReal :=
  w (ix2 (⟨16 + b.val, by omega⟩ : Fin 31) i)

/-- The density of sample `n` of ray `b`. -/
def sigmaAt (feat : (⟨3, ![4096, 128, 16]⟩ : Shape).Idx → EReal) (W0 : Fin 16 → Fin 64 → EReal)
    (W1 : Fin 64 → Fin 16 → EReal) (b : Fin 4096) (n : Fin 128) : EReal :=
  soft ninf (fun n' => hid W0 W1 (fun f => feat (ix3 b n' f)) 0) n

/-- Colour channel `c` of sample `n` of ray `b`. -/
def colorAt (feat : (⟨3, ![4096, 128, 16]⟩ : Shape).Idx → EReal) (d : (⟨2, ![4096, 16]⟩ : Shape).Idx → EReal)
    (W0 : Fin 16 → Fin 64 → EReal) (W1 : Fin 64 → Fin 16 → EReal) (C0d : Fin 16 → Fin 64 → EReal)
    (C0g : Fin 15 → Fin 64 → EReal) (C1 : Fin 64 → Fin 64 → EReal) (C2 : Fin 64 → Fin 3 → EReal)
    (b : Fin 4096) (n : Fin 128) (c : Fin 3) : EReal :=
  col C0d C0g C1 C2 (fun a => d (ix2 b a)) (geo (hid W0 W1 (fun f => feat (ix3 b n f)))) c

/-- The densities as one array. -/
def Gsigma (feat : (⟨3, ![4096, 128, 16]⟩ : Shape).Idx → EReal) (W0 : Fin 16 → Fin 64 → EReal)
    (W1 : Fin 64 → Fin 16 → EReal) : (⟨2, ![4096, 128]⟩ : Shape).Idx → EReal :=
  fun i => sigmaAt feat W0 W1 (i 0) (i 1)

/-- The colours as one array. -/
def Gcolor (feat : (⟨3, ![4096, 128, 16]⟩ : Shape).Idx → EReal) (d : (⟨2, ![4096, 16]⟩ : Shape).Idx → EReal)
    (W0 : Fin 16 → Fin 64 → EReal) (W1 : Fin 64 → Fin 16 → EReal) (C0d : Fin 16 → Fin 64 → EReal)
    (C0g : Fin 15 → Fin 64 → EReal) (C1 : Fin 64 → Fin 64 → EReal) (C2 : Fin 64 → Fin 3 → EReal) :
    (⟨3, ![4096, 128, 3]⟩ : Shape).Idx → EReal :=
  fun i => colorAt feat d W0 W1 C0d C0g C1 C2 (i 0) (i 1) (i 2)

end Cert.Spec

end
-- ==== Proof.Trip.lean ====
/-
  One trip of the kernel's loop over chunks of 16 rays, read as values.

  Trip `k` loads rays 16k … 16k+15 of the point's feature block and of its direction block, and stores two pieces: the
  densities of those 16 rays into rows 16k … 16k+15 of the density block, and their colours into the same rows of the
  colour block. Each piece's payload is the kernel's arithmetic applied to the loaded rows.
-/
import proofs.«169917_j38139309589096_2_alg».proof.Proof.Gen.KernelIdeal.Frame
import proofs.«169917_j38139309589096_2_alg».proof.Proof.Spec
import Idealize.ShloMosaic.Lib.Pipeline.Value
import Idealize.ShloMosaic.Lib.ValueIdx

set_option maxRecDepth 16384

noncomputable section

namespace Cert.KernelIdeal.Trip

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rows a trip loads from the feature block. -/
abbrev featRect (k : Fin k0_t1_loop.trips) : Rect S128x128x16 :=
  Rect.unit (s := S128x128x16) (k0_off1 k) S16x128x16.size (k0_off1_inb k)
/-- The rows it loads from the direction block. -/
abbrev dirRect (k : Fin k0_t1_loop.trips) : Rect S128x16 :=
  Rect.unit (s := S128x16) (k0_off3 k) S16x16.size (k0_off3_inb k)
/-- The rows it stores into the density block. -/
abbrev sigRect (k : Fin k0_t1_loop.trips) : Rect S128x128 :=
  Rect.unit (s := S128x128) (k0_off2 k) S16x128.size (k0_off2_inb k)
/-- The rows it stores into the colour block. -/
abbrev colRect (k : Fin k0_t1_loop.trips) : Rect S128x3x128 :=
  Rect.unit (s := S128x3x128) (k0_off4 k) S16x3x128.size (k0_off4_inb k)

/-- The one density piece of trip `k`. -/
theorem trip_fst (𝒱 : Variants) (c : Dev nD) (bd : Option 𝒱.V) (i : grid0.Coords) (arg1 : Memref sig .tc .vmem S128x128x16 .bf16) (harg1 : arg1.IsWhole) (arg2 : Memref sig .tc .vmem S128x16 .f32) (harg2 : arg2.IsWhole) (arg3 : Memref sig .tc .vmem S16x64 .f32) (harg3 : arg3.IsWhole) (arg4 : Memref sig .tc .vmem S64x16 .f32) (harg4 : arg4.IsWhole) (arg5 : Memref sig .tc .vmem S16x64 .f32) (harg5 : arg5.IsWhole) (arg6 : Memref sig .tc .vmem S15x64 .f32) (harg6 : arg6.IsWhole) (arg7 : Memref sig .tc .vmem S64x64 .f32) (harg7 : arg7.IsWhole) (arg8 : Memref sig .tc .vmem S64x3 .f32) (harg8 : arg8.IsWhole) (arg9 : Memref sig .tc .vmem S128x128 .f32) (harg9 : arg9.IsWhole) (arg10 : Memref sig .tc .vmem S128x3x128 .f32) (harg10 : arg10.IsWhole) (v0 : Vec F S16x64 .f32) (v2 : Vec F S64x16 .f32) (v4 : Vec F S16x64 .f32) (v7 : Vec F S15x64 .f32) (v10 : Vec F S64x64 .f32) (v12 : Vec F S64x3 .f32)
    (X_arg1 : BufTy.Contents (Elt F) arg1.view.ty) (X_arg2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 v0 v2 v4 v7 v10 v12 X_arg1 X_arg2 k).1
      = [⟨sigRect k, k0_pay7 (k0_pay1 v0) (k0_pay2 v2) (View.ld (View.read (Elt F) arg1.view X_arg1) (featRect k))⟩] := by
  unfold trip_k0_t1
  dsimp only
  simp only [View.readAt_eq_ld]

/-- The one colour piece of trip `k`. -/
theorem trip_snd (𝒱 : Variants) (c : Dev nD) (bd : Option 𝒱.V) (i : grid0.Coords) (arg1 : Memref sig .tc .vmem S128x128x16 .bf16) (harg1 : arg1.IsWhole) (arg2 : Memref sig .tc .vmem S128x16 .f32) (harg2 : arg2.IsWhole) (arg3 : Memref sig .tc .vmem S16x64 .f32) (harg3 : arg3.IsWhole) (arg4 : Memref sig .tc .vmem S64x16 .f32) (harg4 : arg4.IsWhole) (arg5 : Memref sig .tc .vmem S16x64 .f32) (harg5 : arg5.IsWhole) (arg6 : Memref sig .tc .vmem S15x64 .f32) (harg6 : arg6.IsWhole) (arg7 : Memref sig .tc .vmem S64x64 .f32) (harg7 : arg7.IsWhole) (arg8 : Memref sig .tc .vmem S64x3 .f32) (harg8 : arg8.IsWhole) (arg9 : Memref sig .tc .vmem S128x128 .f32) (harg9 : arg9.IsWhole) (arg10 : Memref sig .tc .vmem S128x3x128 .f32) (harg10 : arg10.IsWhole) (v0 : Vec F S16x64 .f32) (v2 : Vec F S64x16 .f32) (v4 : Vec F S16x64 .f32) (v7 : Vec F S15x64 .f32) (v10 : Vec F S64x64 .f32) (v12 : Vec F S64x3 .f32)
    (X_arg1 : BufTy.Contents (Elt F) arg1.view.ty) (X_arg2 : BufTy.Contents (Elt F) arg2.view.ty) (k : Fin k0_t1_loop.trips) :
    (trip_k0_t1 (F := F) 𝒱 c bd i arg1 harg1 arg2 harg2 arg3 harg3 arg4 harg4 arg5 harg5 arg6 harg6 arg7 harg7 arg8 harg8 arg9 harg9 arg10 harg10 v0 v2 v4 v7 v10 v12 X_arg1 X_arg2 k).2.1
      = [⟨colRect k, k0_pay5 v10 v12 (k0_pay8 (k0_pay1 v0) (k0_pay2 v2) (k0_pay3 v4) (k0_pay4 v7)
          (View.ld (View.read (Elt F) arg1.view X_arg1) (featRect k))
          (View.ld (View.read (Elt F) arg2.view X_arg2) (dirRect k)))⟩] := by
  unfold trip_k0_t1
  dsimp only
  sl_unfold_run_names
  simp only [View.readAt_eq_ld]

end Cert.KernelIdeal.Trip

end
-- ==== Proof.Block.lean ====
/-
  A whole grid point of the kernel as two block functions.

  At one grid point the kernel holds 128 rays. Its loop visits them 16 at a time, and every trip stores the densities and
  the colours of its 16 rays into their own rows of the two output blocks. Each stored value depends only on the ray's
  own rows of the feature block and of the direction block, so the eight density pieces are the restrictions of ONE
  function of the block index (`sigBlk`), and the eight colour pieces of another (`colBlk`); since the pieces tile the
  blocks, the blocks end holding those functions.
-/
import proofs.«169917_j38139309589096_2_alg».proof.Proof.Gen.KernelIdeal.Frame
import proofs.«169917_j38139309589096_2_alg».proof.Proof.Spec
import Idealize.ShloMosaic.Lib.Pipeline.Value
import Idealize.ShloMosaic.Lib.ValueIdx
import proofs.«169917_j38139309589096_2_alg».proof.Proof.Trip
set_option maxRecDepth 16384

noncomputable section

namespace Cert.KernelIdeal.Block

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Spec Cert.KernelIdeal.Trip

/-- The kernel's density arithmetic on a chunk of 16 rays, entry by entry (proved with the payload). -/
def SigmaFact : Prop :=
  ∀ (w0 : Vec Ideal S16x64 .f32) (w1 : Vec Ideal S64x16 .f32) (x : Vec Ideal S16x128x16 .bf16) (r : Fin 16) (n : Fin 128),
    k0_pay7 (F := Ideal) (k0_pay1 w0) (k0_pay2 w1) x (ix2 r n)
      = soft ninf (fun n' => hid (mat w0) (mat w1) (fun f => x (ix3 r n' f)) 0) n

/-- The kernel's colour arithmetic on a chunk of 16 rays, entry by entry (proved with the payload). -/
def ColorFact : Prop :=
  ∀ (w0 : Vec Ideal S16x64 .f32) (w1 : Vec Ideal S64x16 .f32) (c0d : Vec Ideal S16x64 .f32)
    (c0g : Vec Ideal S15x64 .f32) (c1 : Vec Ideal S64x64 .f32) (c2 : Vec Ideal S64x3 .f32)
    (x : Vec Ideal S16x128x16 .bf16) (dd : Vec Ideal S16x16 .f32) (r : Fin 16) (c : Fin 3) (n : Fin 128),
    k0_pay5 (F := Ideal) c1 c2 (k0_pay8 (k0_pay1 w0) (k0_pay2 w1) (k0_pay3 c0d) (k0_pay4 c0g) x dd) (ix3 r c n)
      = col (mat c0d) (mat c0g) (mat c1) (mat c2) (fun a => dd (ix2 r a))
          (geo (hid (mat w0) (mat w1) (fun f => x (ix3 r n f)))) c

/-- The density block of a grid point, as a function of its feature block and the two density-net matrices. -/
def sigBlk (x0 : Vec Ideal S128x128x16 .bf16) (w0 : Vec Ideal S16x64 .f32) (w1 : Vec Ideal S64x16 .f32) :
    S128x128.Idx → EReal :=
  fun y => soft ninf (fun n' => hid (mat w0) (mat w1) (fun f => x0 (ix3 (y 0) n' f)) 0) (y 1)

/-- The colour block of a grid point (channel-major: ray, channel, sample). -/
def colBlk (x0 : Vec Ideal S128x128x16 .bf16) (x1 : Vec Ideal S128x16 .f32) (w0 : Vec Ideal S16x64 .f32)
    (w1 : Vec Ideal S64x16 .f32) (c0d : Vec Ideal S16x64 .f32) (c0g : Vec Ideal S15x64 .f32)
    (c1 : Vec Ideal S64x64 .f32) (c2 : Vec Ideal S64x3 .f32) : S128x3x128.Idx → EReal :=
  fun y => col (mat c0d) (mat c0g) (mat c1) (mat c2) (fun a => x1 (ix2 (y 0) a))
    (geo (hid (mat w0) (mat w1) (fun f => x0 (ix3 (y 0) (y 2) f)))) (y 1)

theorem trips_le (k : Fin k0_t1_loop.trips) : k.val < 8 := Nat.lt_of_lt_of_le k.isLt k0_t1_abs.2.1

/-- Row `r` of trip `k`'s density piece is row `16k + r` of the block. -/
theorem sigRect_emb (k : Fin k0_t1_loop.trips) (r : Fin 16) (n : Fin 128) :
    (sigRect k).emb (ix2 r n) = ix2 (⟨16 * k.val + r.val, by have := trips_le k; omega⟩ : Fin 128) n := by
  have h := k0_off2_eq k
  funext a
  apply Fin.ext
  match a with
  | ⟨0, _⟩ =>
    show k0_off2 k ⟨0, by decide⟩ + 1 * r.val = 16 * k.val + r.val
    rw [h]; show 16 * k.val + 1 * r.val = _; omega
  | ⟨1, _⟩ =>
    show k0_off2 k ⟨1, by decide⟩ + 1 * n.val = n.val
    rw [h]; show 0 + 1 * n.val = _; omega

/-- Row `r` of the feature rows trip `k` loads is row `16k + r` of the feature block. -/
theorem featRect_emb (k : Fin k0_t1_loop.trips) (r : Fin 16) (n : Fin 128) (f : Fin 16) :
    (featRect k).emb (ix3 r n f) = ix3 (⟨16 * k.val + r.val, by have := trips_le k; omega⟩ : Fin 128) n f := by
  have h := k0_off1_eq k
  funext a
  apply Fin.ext
  match a with
  | ⟨0, _⟩ =>
    show k0_off1 k ⟨0, by decide⟩ + 1 * r.val = 16 * k.val + r.val
    rw [h]; show 16 * k.val + 1 * r.val = _; omega
  | ⟨1, _⟩ =>
    show k0_off1 k ⟨1, by decide⟩ + 1 * n.val = n.val
    rw [h]; show 0 + 1 * n.val = _; omega
  | ⟨2, _⟩ =>
    show k0_off1 k ⟨2, by decide⟩ + 1 * f.val = f.val
    rw [h]; show 0 + 1 * f.val = _; omega

/-- Trip `k`'s density payload is the block function on its rows. -/
theorem sig_piece (hσ : SigmaFact) (x0 : Vec Ideal S128x128x16 .bf16) (w0 : Vec Ideal S16x64 .f32)
    (w1 : Vec Ideal S64x16 .f32) (k : Fin k0_t1_loop.trips) (x : (sigRect k).shape.Idx) :
    k0_pay7 (F := Ideal) (k0_pay1 w0) (k0_pay2 w1) (View.ld x0 (featRect k)) x = sigBlk x0 w0 w1 ((sigRect k).emb x) := by
  obtain ⟨r, n, rfl⟩ : ∃ (r : Fin 16) (n : Fin 128), x = ix2 r n := ⟨x 0, x 1, eq_ix2 x⟩
  rw [hσ, sigRect_emb]
  unfold sigBlk
  have e : ∀ n' f, View.ld x0 (featRect k) (ix3 r n' f)
      = x0 (ix3 (⟨16 * k.val + r.val, by have := trips_le k; omega⟩ : Fin 128) n' f) := fun n' f =>
    congrArg x0 (featRect_emb k r n' f)
  simp only [e]

/-- Row `r` of trip `k`'s colour piece is row `16k + r` of the block. -/
theorem colRect_emb (k : Fin k0_t1_loop.trips) (r : Fin 16) (c : Fin 3) (n : Fin 128) :
    (colRect k).emb (ix3 r c n) = ix3 (⟨16 * k.val + r.val, by have := trips_le k; omega⟩ : Fin 128) c n := by
  have h := k0_off4_eq k
  funext a
  apply Fin.ext
  match a with
  | ⟨0, _⟩ =>
    show k0_off4 k ⟨0, by decide⟩ + 1 * r.val = 16 * k.val + r.val
    rw [h]; show 16 * k.val + 1 * r.val = _; omega
  | ⟨1, _⟩ =>
    show k0_off4 k ⟨1, by decide⟩ + 1 * c.val = c.val
    rw [h]; show 0 + 1 * c.val = _; omega
  | ⟨2, _⟩ =>
    show k0_off4 k ⟨2, by decide⟩ + 1 * n.val = n.val
    rw [h]; show 0 + 1 * n.val = _; omega

/-- Row `r` of the direction rows trip `k` loads is row `16k + r` of the direction block. -/
theorem dirRect_emb (k : Fin k0_t1_loop.trips) (r : Fin 16) (a : Fin 16) :
    (dirRect k).emb (ix2 r a) = ix2 (⟨16 * k.val + r.val, by have := trips_le k; omega⟩ : Fin 128) a := by
  have h := k0_off3_eq k
  funext d
  apply Fin.ext
  match d with
  | ⟨0, _⟩ =>
    show k0_off3 k ⟨0, by decide⟩ + 1 * r.val = 16 * k.val + r.val
    rw [h]; show 16 * k.val + 1 * r.val = _; omega
  | ⟨1, _⟩ =>
    show k0_off3 k ⟨1, by decide⟩ + 1 * a.val = a.val
    rw [h]; show 0 + 1 * a.val = _; omega

/-- Trip `k`'s colour payload is the block function on its rows. -/
theorem col_piece (hc : ColorFact) (x0 : Vec Ideal S128x128x16 .bf16) (x1 : Vec Ideal S128x16 .f32)
    (w0 : Vec Ideal S16x64 .f32) (w1 : Vec Ideal S64x16 .f32) (c0d : Vec Ideal S16x64 .f32) (c0g : Vec Ideal S15x64 .f32)
    (c1 : Vec Ideal S64x64 .f32) (c2 : Vec Ideal S64x3 .f32) (k : Fin k0_t1_loop.trips) (x : (colRect k).shape.Idx) :
    k0_pay5 (F := Ideal) c1 c2 (k0_pay8 (k0_pay1 w0) (k0_pay2 w1) (k0_pay3 c0d) (k0_pay4 c0g)
        (View.ld x0 (featRect k)) (View.ld x1 (dirRect k))) x
      = colBlk x0 x1 w0 w1 c0d c0g c1 c2 ((colRect k).emb x) := by
  obtain ⟨r, c, n, rfl⟩ : ∃ (r : Fin 16) (c : Fin 3) (n : Fin 128), x = ix3 r c n := ⟨x 0, x 1, x 2, eq_ix3 x⟩
  rw [hc, colRect_emb]
  unfold colBlk
  have e : ∀ n' f, View.ld x0 (featRect k) (ix3 r n' f)
      = x0 (ix3 (⟨16 * k.val + r.val, by have := trips_le k; omega⟩ : Fin 128) n' f) := fun n' f =>
    congrArg x0 (featRect_emb k r n' f)
  have e' : ∀ a, View.ld x1 (dirRect k) (ix2 r a)
      = x1 (ix2 (⟨16 * k.val + r.val, by have := trips_le k; omega⟩ : Fin 128) a) := fun a =>
    congrArg x1 (dirRect_emb k r a)
  simp only [e, e']

section Run
variable (c : Dev nD) (i : grid0.Coords) (arg1 : Memref sig .tc .vmem S128x128x16 .bf16) (harg1 : arg1.IsWhole) (arg2 : Memref sig .tc .vmem S128x16 .f32) (harg2 : arg2.IsWhole) (arg3 : Memref sig .tc .vmem S16x64 .f32) (harg3 : arg3.IsWhole) (arg4 : Memref sig .tc .vmem S64x16 .f32) (harg4 : arg4.IsWhole) (arg5 : Memref sig .tc .vmem S16x64 .f32) (harg5 : arg5.IsWhole) (arg6 : Memref sig .tc .vmem S15x64 .f32) (harg6 : arg6.IsWhole) (arg7 : Memref sig .tc .vmem S64x64 .f32) (harg7 : arg7.IsWhole) (arg8 : Memref sig .tc .vmem S64x3 .f32) (harg8 : arg8.IsWhole) (arg9 : Memref sig .tc .vmem S128x128 .f32) (harg9 : arg9.IsWhole) (arg10 : Memref sig .tc .vmem S128x3x128 .f32) (harg10 : arg10.IsWhole)
  (x0 : Vec Ideal S128x128x16 .bf16) (x1 : Vec Ideal S128x16 .f32) (x2 : Vec Ideal S16x64 .f32) (x3 : Vec Ideal S64x16 .f32)
  (x4 : Vec Ideal S16x64 .f32) (x5 : Vec Ideal S15x64 .f32) (x6 : Vec Ideal S64x64 .f32) (x7 : Vec Ideal S64x3 .f32)

/-- A weight block loaded whole reads back as the block. -/
theorem readAt_whole {S : Shape} {e : EltTy} (a : Memref sig .tc .vmem S e) (ha : a.IsWhole) {off : Fin S.rank → ℕ}
    (hz : off = fun _ => 0) (inb : ∀ d, off d + S.size d ≤ S.size d) (X : S.Idx → Elt Ideal e) :
    View.readAt (Elt Ideal) a.view (Rect.unit (s := S) off S.size inb).toLoadRect (ha.unread X) = X := by
  rw [View.readAt_eq_ld, ha.read_unread, View.ld_unit_zero hz]

theorem hz2 : (![0, 0] : Fin 2 → ℕ) = fun _ => 0 := by funext a; fin_cases a <;> rfl

/-- Every density piece the body stores at a grid point is the block function on its rows. -/
theorem run_pieces8 (hσ : SigmaFact) :
    ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5 x6 x7).1,
      ∀ x : p.1.shape.Idx, p.2 x = sigBlk x0 x2 x3 (p.1.emb x) := by
  unfold kernelRun0_A
  dsimp only
  rw [readAt_whole arg3 harg3 hz2, readAt_whole arg4 harg4 hz2, readAt_whole arg5 harg5 hz2, readAt_whole arg6 harg6 hz2,
    readAt_whole arg7 harg7 hz2, readAt_whole arg8 harg8 hz2]
  generalize Scf.trips (0#32) (Scalar.addi 0#32 8#32) 1#32 = N
  induction N with
  | zero => intro p hp; simp [pb_k0_t1] at hp
  | succ n ih =>
    rw [pb_k0_t1]
    unfold pb_k0_t1Step
    split
    · rename_i hn
      intro p hp
      rcases List.mem_append.mp hp with h | h
      · dsimp only at h
        rw [trip_fst] at h
        obtain rfl := List.mem_singleton.mp h
        intro x
        dsimp only
        rw [harg1.read_unread]
        exact sig_piece hσ x0 x2 x3 ⟨n, hn⟩ x
      · exact ih p h
    · exact ih

/-- Every colour piece the body stores at a grid point is the block function on its rows. -/
theorem run_pieces9 (hc : ColorFact) :
    ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5 x6 x7).2.1,
      ∀ x : p.1.shape.Idx, p.2 x = colBlk x0 x1 x2 x3 x4 x5 x6 x7 (p.1.emb x) := by
  unfold kernelRun0_A
  dsimp only
  rw [readAt_whole arg3 harg3 hz2, readAt_whole arg4 harg4 hz2, readAt_whole arg5 harg5 hz2, readAt_whole arg6 harg6 hz2,
    readAt_whole arg7 harg7 hz2, readAt_whole arg8 harg8 hz2]
  generalize Scf.trips (0#32) (Scalar.addi 0#32 8#32) 1#32 = N
  induction N with
  | zero => intro p hp; simp [pb_k0_t1] at hp
  | succ n ih =>
    rw [pb_k0_t1]
    unfold pb_k0_t1Step
    split
    · rename_i hn
      intro p hp
      rcases List.mem_append.mp hp with h | h
      · dsimp only at h
        rw [trip_snd] at h
        obtain rfl := List.mem_singleton.mp h
        intro x
        dsimp only
        rw [harg1.read_unread, harg2.read_unread]
        exact col_piece hc x0 x1 x2 x3 x4 x5 x6 x7 ⟨n, hn⟩ x
      · exact ih p h
    · exact ih

/-- The density block a grid point leaves: the eight pieces tile it, each a restriction of the block function. -/
theorem out8 (hσ : SigmaFact) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 = sigBlk x0 x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  funext y
  exact View.canon_apply_of_pieces (sigBlk x0 x2 x3) _
    (run_pieces8 c i arg1 harg1 arg2 harg2 arg3 harg3 arg4 harg4 arg5 harg5 arg6 harg6 arg7 harg7 arg8 harg8 arg9 harg9 arg10 harg10 x0 x1 x2 x3 x4 x5 x6 x7 hσ) y
    (cover0_A_8 c i arg1 harg1 arg2 harg2 arg3 harg3 arg4 harg4 arg5 harg5 arg6 harg6 arg7 harg7 arg8 harg8 arg9 harg9 arg10 harg10 x0 x1 x2 x3 x4 x5 x6 x7 y)

/-- The colour block a grid point leaves. -/
theorem out9 (hc : ColorFact) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 = colBlk x0 x1 x2 x3 x4 x5 x6 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7)]
  funext y
  exact View.canon_apply_of_pieces (colBlk x0 x1 x2 x3 x4 x5 x6 x7) _
    (run_pieces9 c i arg1 harg1 arg2 harg2 arg3 harg3 arg4 harg4 arg5 harg5 arg6 harg6 arg7 harg7 arg8 harg8 arg9 harg9 arg10 harg10 x0 x1 x2 x3 x4 x5 x6 x7 hc) y
    (cover0_A_9 c i arg1 harg1 arg2 harg2 arg3 harg3 arg4 harg4 arg5 harg5 arg6 harg6 arg7 harg7 arg8 harg8 arg9 harg9 arg10 harg10 x0 x1 x2 x3 x4 x5 x6 x7 y)

end Run

end Cert.KernelIdeal.Block

end
-- ==== Proof.Final.lean ====
/-
  From the grid points' blocks to the two whole arrays.

  Grid point `t` handles rays 128t … 128t+127: it is handed those rows of the feature array and of the direction array
  and the six weight matrices whole, and it writes back those rows of the density array and of the (channel-major)
  colour array. What it writes back is the point's block function of its input blocks, which is the restriction to
  those rows of ONE function of the whole arrays — each ray's values depend on that ray's own rows only. The 32 points'
  row ranges tile the 4096 rays, so after the run each array holds that function everywhere.
-/
import proofs.«169917_j38139309589096_2_alg».proof.Proof.Gen.KernelIdeal.Frame
import proofs.«169917_j38139309589096_2_alg».proof.Proof.Spec
import Idealize.ShloMosaic.Lib.Pipeline.Value
import Idealize.ShloMosaic.Lib.ValueIdx
import proofs.«169917_j38139309589096_2_alg».proof.Proof.Block
set_option maxRecDepth 16384

noncomputable section

namespace Cert.KernelIdeal.Final

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.Spec Cert.KernelIdeal.Block
open Idealize.ShloMosaic.Pipeline (Dat Cfg Window)

variable (m : (ℓ : Loc nD τ sig) → Buf (Elt Ideal) ℓ) (ρ : Dev nD → PrngReg)

/-- The density array as one function of the arrays the region finds. -/
def Gσ (c : Dev nD) : S4096x128.Idx → EReal :=
  Gsigma (V m c main_v8) (mat (V m c main_arg3)) (mat (V m c main_arg4))

/-- The channel-major colour array as one function of the arrays the region finds. -/
def Gκ (c : Dev nD) : S4096x3x128.Idx → EReal := fun i =>
  colorAt (V m c main_v8) (V m c main_arg1) (mat (V m c main_arg3)) (mat (V m c main_arg4)) (mat (V m c main_v9))
    (mat (V m c main_v10)) (mat (V m c main_arg6)) (mat (V m c main_arg7)) (i 0) (i 2) (i 1)

theorem sigBlk_ix2 (x0 : Vec Ideal S128x128x16 .bf16) (w0 : Vec Ideal S16x64 .f32) (w1 : Vec Ideal S64x16 .f32)
    (r n : Fin 128) :
    sigBlk x0 w0 w1 (ix2 r n) = soft ninf (fun n' => hid (mat w0) (mat w1) (fun f => x0 (ix3 r n' f)) 0) n := rfl

theorem Gσ_ix2 (c : Dev nD) (R : Fin 4096) (n : Fin 128) :
    Gσ m c (ix2 R n) = soft ninf (fun n' => hid (mat (V m c main_arg3)) (mat (V m c main_arg4))
      (fun f => V m c main_v8 (ix3 R n' f)) 0) n := rfl

theorem hN : cfg0.N = 32 := N_0

theorem t_lt (t : Fin cfg0.N) : t.val < 32 := Nat.lt_of_lt_of_eq t.isLt hN

/-- The printed index maps over the grid: the ray-blocked windows move with the point, the weights stay. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

/-- Row `r` of point `t`'s feature block is row `128t + r` of the feature array. -/
theorem iblk0_apply (c : Dev nD) (t : Fin cfg0.N) (r n : Fin 128) (f : Fin 16) :
    iblk m c 0 t (ix3 r n f)
      = V m c main_v8 (ix3 (⟨128 * t.val + r.val, by have := t_lt t; omega⟩ : Fin 4096) n f) := by
  show V m c main_v8 (((cfg0.win 0).blk t).view.emb (ix3 r n f)) = _
  refine congrArg (V m c main_v8) ?_
  obtain ⟨⟨e0, e1, e2⟩, -⟩ := idx_facts t
  funext a
  apply Fin.ext
  match a with
  | ⟨0, _⟩ => show win0_0.index t (0 : Fin 3) * 128 + 1 * r.val = 128 * t.val + r.val; omega
  | ⟨1, _⟩ => show win0_0.index t (1 : Fin 3) * 128 + 1 * n.val = n.val; omega
  | ⟨2, _⟩ => show win0_0.index t (2 : Fin 3) * 16 + 1 * f.val = f.val; omega

/-- Row `r` of point `t`'s direction block is row `128t + r` of the direction array. -/
theorem iblk1_apply (c : Dev nD) (t : Fin cfg0.N) (r : Fin 128) (a : Fin 16) :
    iblk m c 1 t (ix2 r a)
      = V m c main_arg1 (ix2 (⟨128 * t.val + r.val, by have := t_lt t; omega⟩ : Fin 4096) a) := by
  show V m c main_arg1 (((cfg0.win 1).blk t).view.emb (ix2 r a)) = _
  refine congrArg (V m c main_arg1) ?_
  obtain ⟨-, ⟨e0, e1⟩, -⟩ := idx_facts t
  funext d
  apply Fin.ext
  match d with
  | ⟨0, _⟩ => show win0_1.index t (0 : Fin 2) * 128 + 1 * r.val = 128 * t.val + r.val; omega
  | ⟨1, _⟩ => show win0_1.index t (1 : Fin 2) * 16 + 1 * a.val = a.val; omega

/-- A weight matrix's block is the matrix, at every point. -/
theorem iblk2_eq (c : Dev nD) (t : Fin cfg0.N) : iblk m c 2 t = V m c main_arg3 := by
  funext y
  show V m c main_arg3 (((cfg0.win 2).blk t).view.emb y) = V m c main_arg3 y
  refine congrArg (V m c main_arg3) ?_
  obtain ⟨-, -, ⟨e0, e1⟩, -⟩ := idx_facts t
  funext d
  apply Fin.ext
  match d with
  | ⟨0, _⟩ => show win0_2.index t (0 : Fin 2) * 16 + 1 * (y 0).val = (y 0).val; omega
  | ⟨1, _⟩ => show win0_2.index t (1 : Fin 2) * 64 + 1 * (y 1).val = (y 1).val; omega

theorem iblk3_eq (c : Dev nD) (t : Fin cfg0.N) : iblk m c 3 t = V m c main_arg4 := by
  funext y
  show V m c main_arg4 (((cfg0.win 3).blk t).view.emb y) = V m c main_arg4 y
  refine congrArg (V m c main_arg4) ?_
  obtain ⟨-, -, -, ⟨e0, e1⟩, -⟩ := idx_facts t
  funext d
  apply Fin.ext
  match d with
  | ⟨0, _⟩ => show win0_3.index t (0 : Fin 2) * 64 + 1 * (y 0).val = (y 0).val; omega
  | ⟨1, _⟩ => show win0_3.index t (1 : Fin 2) * 16 + 1 * (y 1).val = (y 1).val; omega

/-- Row `r` of point `t`'s density block is row `128t + r` of the density array. -/
theorem blk8_emb (t : Fin cfg0.N) (r n : Fin 128) :
    ((cfg0.win 8).blk t).view.emb (ix2 r n)
      = ix2 (⟨128 * t.val + r.val, by have := t_lt t; omega⟩ : Fin 4096) n := by
  obtain ⟨-, -, -, -, -, -, -, -, ⟨e0, e1⟩, -⟩ := idx_facts t
  funext d
  apply Fin.ext
  match d with
  | ⟨0, _⟩ => show win0_8.index t (0 : Fin 2) * 128 + 1 * r.val = 128 * t.val + r.val; omega
  | ⟨1, _⟩ => show win0_8.index t (1 : Fin 2) * 128 + 1 * n.val = n.val; omega

/-- What point `t` writes back into the density array is block `t` of `Gσ`. -/
theorem flushed8_eq (hσ : SigmaFact) (c : Dev nD) (t : Fin cfg0.N) :
    (dats m 0 c).flushed 8 t = ((cfg0.win 8).blk t).view.read (Elt Ideal) (Gσ m c) := by
  show (cfg0.win 8).cut (grid0.coords t) ((dats m 0 c).after 8 t) = _
  rw [after0_8]
  unfold outsAt0
  dsimp only
  rw [out8 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t) (iblk m c 7 t) hσ]
  funext j
  obtain ⟨r, n, rfl⟩ : ∃ (r n : Fin 128), j = ix2 r n := ⟨j 0, j 1, eq_ix2 j⟩
  show sigBlk (iblk m c 0 t) (iblk m c 2 t) (iblk m c 3 t) (ix2 r n) = Gσ m c (((cfg0.win 8).blk t).view.emb (ix2 r n))
  rw [blk8_emb, sigBlk_ix2, Gσ_ix2, iblk2_eq, iblk3_eq]
  refine congrArg (fun g => soft ninf g n) (funext fun n' => ?_)
  refine congrArg (fun x => hid (mat (V m c main_arg3)) (mat (V m c main_arg4)) x 0) (funext fun f => ?_)
  exact iblk0_apply m c t r n' f

/-- An index of the density array is in point `t`'s block iff each coordinate is in the block's range. -/
theorem mem_blk8 (t : Fin cfg0.N) (i : S4096x128.Idx) :
    i ∈ ((cfg0.win 8).blk t).view.set ↔ ∀ a : Fin 2, win0_8.index t a * S128x128.size a ≤ (i a).val
      ∧ (i a).val < win0_8.index t a * S128x128.size a + S128x128.size a := by
  show i ∈ ((View.whole main_v11_0).slice (win0_8.rect t)).set ↔ _
  rw [View.set_slice_whole, Rect.mem_set_unit]
  exact Iff.rfl

/-- Every ray's row lies in the block of the point that handles it. -/
theorem cover8 (i : S4096x128.Idx) :
    ∃ t : Fin cfg0.N, (cfg0.win 8).flush t = true ∧ i ∈ ((cfg0.win 8).blk t).view.set := by
  have hi0 : (i 0).val < 4096 := (i 0).isLt
  have hi1 : (i 1).val < 128 := (i 1).isLt
  have ht : (i 0).val / 128 < cfg0.N := by rw [hN]; omega
  refine ⟨⟨(i 0).val / 128, ht⟩, flush0_8 _, ?_⟩
  rw [mem_blk8]
  obtain ⟨-, -, -, -, -, -, -, -, ⟨e0, e1⟩, -⟩ := idx_facts ⟨(i 0).val / 128, ht⟩
  dsimp only at e0
  intro a
  match a with
  | ⟨0, _⟩ =>
    show win0_8.index ⟨(i 0).val / 128, ht⟩ (0 : Fin 2) * 128 ≤ (i 0).val
      ∧ (i 0).val < win0_8.index ⟨(i 0).val / 128, ht⟩ (0 : Fin 2) * 128 + 128
    omega
  | ⟨1, _⟩ =>
    show win0_8.index ⟨(i 0).val / 128, ht⟩ (1 : Fin 2) * 128 ≤ (i 1).val
      ∧ (i 1).val < win0_8.index ⟨(i 0).val / 128, ht⟩ (1 : Fin 2) * 128 + 128
    omega

/-- The density array after the run. -/
theorem final8 (hσ : SigmaFact) (c : Dev nD) : (dats m 0 c).arrAt 8 cfg0.N = Gσ m c :=
  (dats m 0 c).arrAt_eq_of_cover 8 (Gσ m c) (fun t _ => flushed8_eq m hσ c t) (cover8)

theorem iblk4_eq (c : Dev nD) (t : Fin cfg0.N) : iblk m c 4 t = V m c main_v9 := by
  funext y
  show V m c main_v9 (((cfg0.win 4).blk t).view.emb y) = V m c main_v9 y
  refine congrArg (V m c main_v9) ?_
  obtain ⟨-, -, -, -, ⟨e0, e1⟩, -⟩ := idx_facts t
  funext d
  apply Fin.ext
  match d with
  | ⟨0, _⟩ => show win0_4.index t (0 : Fin 2) * 16 + 1 * (y 0).val = (y 0).val; omega
  | ⟨1, _⟩ => show win0_4.index t (1 : Fin 2) * 64 + 1 * (y 1).val = (y 1).val; omega

theorem iblk5_eq (c : Dev nD) (t : Fin cfg0.N) : iblk m c 5 t = V m c main_v10 := by
  funext y
  show V m c main_v10 (((cfg0.win 5).blk t).view.emb y) = V m c main_v10 y
  refine congrArg (V m c main_v10) ?_
  obtain ⟨-, -, -, -, -, ⟨e0, e1⟩, -⟩ := idx_facts t
  funext d
  apply Fin.ext
  match d with
  | ⟨0, _⟩ => show win0_5.index t (0 : Fin 2) * 15 + 1 * (y 0).val = (y 0).val; omega
  | ⟨1, _⟩ => show win0_5.index t (1 : Fin 2) * 64 + 1 * (y 1).val = (y 1).val; omega

theorem iblk6_eq (c : Dev nD) (t : Fin cfg0.N) : iblk m c 6 t = V m c main_arg6 := by
  funext y
  show V m c main_arg6 (((cfg0.win 6).blk t).view.emb y) = V m c main_arg6 y
  refine congrArg (V m c main_arg6) ?_
  obtain ⟨-, -, -, -, -, -, ⟨e0, e1⟩, -⟩ := idx_facts t
  funext d
  apply Fin.ext
  match d with
  | ⟨0, _⟩ => show win0_6.index t (0 : Fin 2) * 64 + 1 * (y 0).val = (y 0).val; omega
  | ⟨1, _⟩ => show win0_6.index t (1 : Fin 2) * 64 + 1 * (y 1).val = (y 1).val; omega

theorem iblk7_eq (c : Dev nD) (t : Fin cfg0.N) : iblk m c 7 t = V m c main_arg7 := by
  funext y
  show V m c main_arg7 (((cfg0.win 7).blk t).view.emb y) = V m c main_arg7 y
  refine congrArg (V m c main_arg7) ?_
  obtain ⟨-, -, -, -, -, -, -, ⟨e0, e1⟩, -⟩ := idx_facts t
  funext d
  apply Fin.ext
  match d with
  | ⟨0, _⟩ => show win0_7.index t (0 : Fin 2) * 64 + 1 * (y 0).val = (y 0).val; omega
  | ⟨1, _⟩ => show win0_7.index t (1 : Fin 2) * 3 + 1 * (y 1).val = (y 1).val; omega

theorem colBlk_ix3 (x0 : Vec Ideal S128x128x16 .bf16) (x1 : Vec Ideal S128x16 .f32) (w0 : Vec Ideal S16x64 .f32)
    (w1 : Vec Ideal S64x16 .f32) (c0d : Vec Ideal S16x64 .f32) (c0g : Vec Ideal S15x64 .f32)
    (c1 : Vec Ideal S64x64 .f32) (c2 : Vec Ideal S64x3 .f32) (r : Fin 128) (k : Fin 3) (n : Fin 128) :
    colBlk x0 x1 w0 w1 c0d c0g c1 c2 (ix3 r k n)
      = col (mat c0d) (mat c0g) (mat c1) (mat c2) (fun a => x1 (ix2 r a))
          (geo (hid (mat w0) (mat w1) (fun f => x0 (ix3 r n f)))) k := rfl

theorem Gκ_ix3 (c : Dev nD) (R : Fin 4096) (k : Fin 3) (n : Fin 128) :
    Gκ m c (ix3 R k n)
      = col (mat (V m c main_v9)) (mat (V m c main_v10)) (mat (V m c main_arg6)) (mat (V m c main_arg7))
          (fun a => V m c main_arg1 (ix2 R a))
          (geo (hid (mat (V m c main_arg3)) (mat (V m c main_arg4)) (fun f => V m c main_v8 (ix3 R n f)))) k := rfl

/-- Row `r` of point `t`'s colour block is row `128t + r` of the colour array. -/
theorem blk9_emb (t : Fin cfg0.N) (r : Fin 128) (k : Fin 3) (n : Fin 128) :
    ((cfg0.win 9).blk t).view.emb (ix3 r k n)
      = ix3 (⟨128 * t.val + r.val, by have := t_lt t; omega⟩ : Fin 4096) k n := by
  obtain ⟨-, -, -, -, -, -, -, -, -, ⟨e0, e1, e2⟩⟩ := idx_facts t
  funext d
  apply Fin.ext
  match d with
  | ⟨0, _⟩ => show win0_9.index t (0 : Fin 3) * 128 + 1 * r.val = 128 * t.val + r.val; omega
  | ⟨1, _⟩ => show win0_9.index t (1 : Fin 3) * 3 + 1 * k.val = k.val; omega
  | ⟨2, _⟩ => show win0_9.index t (2 : Fin 3) * 128 + 1 * n.val = n.val; omega

/-- What point `t` writes back into the colour array is block `t` of `Gκ`. -/
theorem flushed9_eq (hc : ColorFact) (c : Dev nD) (t : Fin cfg0.N) :
    (dats m 0 c).flushed 9 t = ((cfg0.win 9).blk t).view.read (Elt Ideal) (Gκ m c) := by
  show (cfg0.win 9).cut (grid0.coords t) ((dats m 0 c).after 9 t) = _
  rw [after0_9]
  unfold outsAt0
  dsimp only
  rw [out9 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t) (iblk m c 7 t) hc]
  funext j
  obtain ⟨r, k, n, rfl⟩ : ∃ (r : Fin 128) (k : Fin 3) (n : Fin 128), j = ix3 r k n := ⟨j 0, j 1, j 2, eq_ix3 j⟩
  show colBlk (iblk m c 0 t) (iblk m c 1 t) (iblk m c 2 t) (iblk m c 3 t) (iblk m c 4 t) (iblk m c 5 t) (iblk m c 6 t)
      (iblk m c 7 t) (ix3 r k n) = Gκ m c (((cfg0.win 9).blk t).view.emb (ix3 r k n))
  rw [blk9_emb, colBlk_ix3, Gκ_ix3, iblk2_eq, iblk3_eq, iblk4_eq, iblk5_eq, iblk6_eq, iblk7_eq]
  have ed : (fun a => iblk m c 1 t (ix2 r a))
      = fun a => V m c main_arg1 (ix2 (⟨128 * t.val + r.val, by have := t_lt t; omega⟩ : Fin 4096) a) :=
    funext fun a => iblk1_apply m c t r a
  have ef : (fun f => iblk m c 0 t (ix3 r n f))
      = fun f => V m c main_v8 (ix3 (⟨128 * t.val + r.val, by have := t_lt t; omega⟩ : Fin 4096) n f) :=
    funext fun f => iblk0_apply m c t r n f
  rw [ed, ef]

/-- An index of the colour array is in point `t`'s block iff each coordinate is in the block's range. -/
theorem mem_blk9 (t : Fin cfg0.N) (i : S4096x3x128.Idx) :
    i ∈ ((cfg0.win 9).blk t).view.set ↔ ∀ a : Fin 3, win0_9.index t a * S128x3x128.size a ≤ (i a).val
      ∧ (i a).val < win0_9.index t a * S128x3x128.size a + S128x3x128.size a := by
  show i ∈ ((View.whole main_v11_1).slice (win0_9.rect t)).set ↔ _
  rw [View.set_slice_whole, Rect.mem_set_unit]
  exact Iff.rfl

/-- Every ray's slab lies in the block of the point that handles it. -/
theorem cover9 (i : S4096x3x128.Idx) :
    ∃ t : Fin cfg0.N, (cfg0.win 9).flush t = true ∧ i ∈ ((cfg0.win 9).blk t).view.set := by
  have hi0 : (i 0).val < 4096 := (i 0).isLt
  have hi1 : (i 1).val < 3 := (i 1).isLt
  have hi2 : (i 2).val < 128 := (i 2).isLt
  have ht : (i 0).val / 128 < cfg0.N := by rw [hN]; omega
  refine ⟨⟨(i 0).val / 128, ht⟩, flush0_9 _, ?_⟩
  rw [mem_blk9]
  obtain ⟨-, -, -, -, -, -, -, -, -, ⟨e0, e1, e2⟩⟩ := idx_facts ⟨(i 0).val / 128, ht⟩
  dsimp only at e0
  intro a
  match a with
  | ⟨0, _⟩ =>
    show win0_9.index ⟨(i 0).val / 128, ht⟩ (0 : Fin 3) * 128 ≤ (i 0).val
      ∧ (i 0).val < win0_9.index ⟨(i 0).val / 128, ht⟩ (0 : Fin 3) * 128 + 128
    omega
  | ⟨1, _⟩ =>
    show win0_9.index ⟨(i 0).val / 128, ht⟩ (1 : Fin 3) * 3 ≤ (i 1).val
      ∧ (i 1).val < win0_9.index ⟨(i 0).val / 128, ht⟩ (1 : Fin 3) * 3 + 3
    omega
  | ⟨2, _⟩ =>
    show win0_9.index ⟨(i 0).val / 128, ht⟩ (2 : Fin 3) * 128 ≤ (i 2).val
      ∧ (i 2).val < win0_9.index ⟨(i 0).val / 128, ht⟩ (2 : Fin 3) * 128 + 128
    omega

/-- The colour array after the region. -/
theorem final9 (hc : ColorFact) (c : Dev nD) : (dats m 0 c).arrAt 9 cfg0.N = Gκ m c :=
  (dats m 0 c).arrAt_eq_of_cover 9 (Gκ m c) (fun t _ => flushed9_eq m hc c t) (cover9)

end Cert.KernelIdeal.Final

end
-- ==== Proof.KRun.lean ====
/-
  The idealized program's run with its two result buffers named.

  The generated frame run ends with every array of the pipeline at what the proof data compute for it and every other
  buffer as the lines after the region leave it. The density result is the array of window 8 itself. The colour result
  is written by the one line after the region, the transpose by the permutation (0, 2, 1) of the array of window 9, which
  no later line writes. The eight argument buffers end as they began, exactly as in the generated frame.
-/
import proofs.«169917_j38139309589096_2_alg».proof.Proof.Gen.KernelIdeal.Frame
import Idealize.ShloMosaic.PureOps.Ideal

noncomputable section

namespace Cert.KernelIdeal.RunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ) (ρ : Dev nD → PrngReg)

/-- The one host operation after the region transposes the colour array: the final contents of its result buffer are
    the transpose, by the permutation (0, 2, 1), of the array the pipeline leaves in window 9. -/
theorem tail_v12 (c : Dev nD) :
    Pipeline.afterTail₀ cfgs (dats m) 0 (V0 m) [hostOps1] c main_v12
      = transpose S4096x128x3 [0, 2, 1] ((dats m 0 c).arrAt 9 cfg0.N) transposes_S4096x3x128_S4096x128x3_0_2_1 := by
  unfold Pipeline.afterTail₀
  show StableHlo.after hostOps1 _ (Proc.devRef .tc main_v12) = _
  after_results
  exact congrArg (fun v => transpose S4096x128x3 [0, 2, 1] v transposes_S4096x3x128_S4096x128x3_0_2_1)
    (Pipeline.withArrays_arr spec0 launch0.win.arr_inj c _ _ 9)

/-- The generated frame run with its two result buffers named: every weakly fair execution of the program on the
    TensorCores from `m` with zero counters terminates, and in every final state the density buffer holds the array the
    pipeline leaves in window 8, the colour buffer the transpose of the array it leaves in window 9, and each of the
    eight argument buffers what it held at the start. -/
theorem run_named : θ_run defs (onTc (τ := τ) (main (F := Ideal))) ⟨m, fun _ => 0, ρ⟩ (fun r => ∀ c : Dev nD,
      r.2.mem ((c.tc : Thread nD τ).loc main_v11_0) = (dats m 0 c).arrAt 8 cfg0.N
      ∧ r.2.mem ((c.tc : Thread nD τ).loc main_v12)
          = transpose S4096x128x3 [0, 2, 1] ((dats m 0 c).arrAt 9 cfg0.N) transposes_S4096x3x128_S4096x128x3_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 8,
      ((h c).2 main_v12 (Pipeline.mem_restRefs_of main_v12 (by decide) (by decide))).trans (tail_v12 m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans ((((dats m) 0 c).arrAt_in 2 rfl _).trans ((A_eq m c 2).trans (V_main_arg3 m c))),
      ((h c).1 3).trans ((((dats m) 0 c).arrAt_in 3 rfl _).trans ((A_eq m c 3).trans (V_main_arg4 m c))),
      (((h c).2 main_arg5 (Pipeline.mem_restRefs_of main_arg5 (by decide) (by decide))).trans (W_main_arg5 m (dats m) c)),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c)))⟩) (run_main m ρ)

end Cert.KernelIdeal.RunNamed

end
-- ==== Proof.KHost.lean ====
/-
  The host operations of the kernel's program around its region.

  Before the region the program computes, on the host, the feature array — negative indices normalised, four table rows
  gathered per sample and laid side by side, then narrowed to the 16-bit format, which over the extended reals is the
  identity — and cuts the colour net's first weight matrix into its first 16 and its last 15 rows. The feature array is
  the same composition of operations of the same two arguments as the reference program's, so the two are equal as
  terms, whatever the gathered values are. After the region the program swaps the last two axes of the colour array.
-/
import proofs.«169917_j38139309589096_2_alg».proof.Proof.Gen.KernelIdeal.Frame
import proofs.«169917_j38139309589096_2_alg».proof.Proof.Gen.ReferenceIdeal.Read
import proofs.«169917_j38139309589096_2_alg».proof.Proof.Spec
import Idealize.ShloMosaic.Lib.StableHlo.Run
import Idealize.ShloMosaic.Lib.ValueLayout

noncomputable section

namespace Cert.KernelIdeal.HostSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-- The feature array the region finds is the reference program's feature array of the same arguments. -/
theorem feat_eq : (V m c main_v8 : S4096x128x16.Idx → EReal)
    = Cert.ReferenceIdeal.Read.val_main_v7 (F := Ideal) (m ((c : Thread nD τ).loc main_arg0))
        (m ((c : Thread nD τ).loc main_arg2)) := by
  show StableHlo.after hostOps0 (fun b => m (c, b)) (Proc.devRef .tc main_v8) = _
  after_results
  rfl

/-- The first cut of the colour net's first weight matrix, as the slice of the argument. -/
theorem top_slice : (V m c main_v9 : S16x64.Idx → EReal)
    = extractStridedSlice S16x64 ![0, 0] (m ((c : Thread nD τ).loc main_arg5)) slices_S31x64_S16x64_0_0 := by
  show StableHlo.after hostOps0 (fun b => m (c, b)) (Proc.devRef .tc main_v9) = _
  after_results

/-- The second cut, as the slice of the argument. -/
theorem bot_slice : (V m c main_v10 : S15x64.Idx → EReal)
    = extractStridedSlice S15x64 ![16, 0] (m ((c : Thread nD τ).loc main_arg5)) slices_S31x64_S15x64_16_0 := by
  show StableHlo.after hostOps0 (fun b => m (c, b)) (Proc.devRef .tc main_v10) = _
  after_results

/-- The first cut is the first 16 rows of the matrix. -/
theorem top_eq : Cert.Spec.mat (V m c main_v9) = Cert.Spec.top16 (m ((c : Thread nD τ).loc main_arg5)) := by
  funext a i
  show (V m c main_v9 : S16x64.Idx → EReal) (ix2 a i) = _
  rw [top_slice]
  exact extractStridedSlice_apply ![0, 0] _ slices_S31x64_S16x64_0_0 (ix2 a i) (ix2 (⟨a.val, by omega⟩ : Fin 31) i)
    (fun d => by
      match d with
      | ⟨0, _⟩ => show a.val = 0 + a.val; omega
      | ⟨1, _⟩ => show i.val = 0 + i.val; omega)

/-- The second cut is the last 15 rows of the matrix. -/
theorem bot_eq : Cert.Spec.mat (V m c main_v10) = Cert.Spec.bot15 (m ((c : Thread nD τ).loc main_arg5)) := by
  funext g i
  show (V m c main_v10 : S15x64.Idx → EReal) (ix2 g i) = _
  rw [bot_slice]
  exact extractStridedSlice_apply ![16, 0] _ slices_S31x64_S15x64_16_0 (ix2 g i) (ix2 (⟨16 + g.val, by omega⟩ : Fin 31) i)
    (fun d => by
      match d with
      | ⟨0, _⟩ => rfl
      | ⟨1, _⟩ => show i.val = 0 + i.val; omega)

/-- The last host operation swaps the sample axis and the channel axis. -/
theorem tail_apply (X : FVec Ideal S4096x3x128 .f32) (b : Fin 4096) (n : Fin 128) (k : Fin 3) :
    transpose S4096x128x3 [0, 2, 1] X transposes_S4096x3x128_S4096x128x3_0_2_1 (ix3 b n k) = X (ix3 b k n) :=
  transpose_ix3_021_apply X transposes_S4096x3x128_S4096x128x3_0_2_1 b n k

end Cert.KernelIdeal.HostSide

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.PayHid.lean ====
/-
  The density net of one chunk of 16 rays, read at a sample.

  The chunk's features form a 16 × 128 × 16 array (ray, sample, feature). The two leading axes are laid out row after
  row as 2048 feature rows, row `r · 128 + n` being sample `n` of ray `r`; each row is multiplied by the first weight
  matrix, the larger of the result and zero is taken entry by entry, the result is multiplied by the second weight
  matrix, and the 2048 rows are read back as 16 × 128 × 16. Rounding a weight to the narrower format is the identity
  over the extended reals. So entry `(r, n, o)` of the result is `hid W0 W1` of the feature row of sample `(r, n)`, at `o`.
-/
import proofs.«169917_j38139309589096_2_alg».proof.Proof.Gen.KernelIdeal.Skeleton
import proofs.«169917_j38139309589096_2_alg».proof.Proof.Spec
import proofs.«169917_j38139309589096_2_alg».proof.Proof.LibPlainDot
import Idealize.ShloMosaic.Lib.Pipeline.Value

noncomputable section

namespace Cert.Pay
open Cert.KernelIdeal Cert.KernelIdeal.Gen Cert.Spec Idealize.ShloMosaic Idealize.ShloMosaic.ValueIdx

/-- Flattening the two leading axes of a 16 × 128 × c array keeps an element's row-major position: row `r · 128 + n`
    of the flat array is sample `(r, n)`. -/
theorem flat_read {α : Type} {c : Nat} (v : (⟨3, ![16, 128, c]⟩ : Shape).Idx → α)
    (h : (⟨3, ![16, 128, c]⟩ : Shape).ShapeCasts ⟨2, ![2048, c]⟩) (r : Fin 16) (n : Fin 128) (f : Fin c)
    (m : Fin 2048) (hm : m.val = r.val * 128 + n.val) :
    shapeCast ⟨2, ![2048, c]⟩ v h (ix2 m f) = v (ix3 r n f) :=
  shapeCast_apply v h _ _ (by
    rw [Shape.rowMajor_val_three, Shape.rowMajor_val_two]
    show (r.val * 128 + n.val) * c + f.val = m.val * c + f.val
    rw [hm])

/-- The inverse reshape: sample `(r, n)` of the 16 × 128 × c array is row `r · 128 + n` of the flat one. -/
theorem unflat_read {α : Type} {c : Nat} (v : (⟨2, ![2048, c]⟩ : Shape).Idx → α)
    (h : (⟨2, ![2048, c]⟩ : Shape).ShapeCasts ⟨3, ![16, 128, c]⟩) (r : Fin 16) (n : Fin 128) (f : Fin c)
    (m : Fin 2048) (hm : m.val = r.val * 128 + n.val) :
    shapeCast ⟨3, ![16, 128, c]⟩ v h (ix3 r n f) = v (ix2 m f) :=
  shapeCast_apply v h _ _ (by
    rw [Shape.rowMajor_val_three, Shape.rowMajor_val_two]
    show m.val * c + f.val = (r.val * 128 + n.val) * c + f.val
    rw [hm])

/-- A shape cast to the same shape moves nothing. -/
theorem same_read {α : Type} {s : Shape} (v : s.Idx → α) (h : s.ShapeCasts s) (j : s.Idx) : shapeCast s v h j = v j :=
  shapeCast_apply v h j j rfl

/-- The flat row of sample `n` of ray `r`. -/
def flatRow (r : Fin 16) (n : Fin 128) : Fin 2048 := ⟨r.val * 128 + n.val, by omega⟩

/-- The first layer's product, 2048 × 16 by 16 × 64 into the zero block, at an entry. -/
theorem dot1_apply (lhs : FVec Ideal S2048x16 .bf16) (rhs : FVec Ideal S16x64 .bf16) (p : Fin 2048) (e : Fin 64) :
    matmul dot_S2048x16_S16x64_S2048x64_1_0_0_1_n_n none lhs rhs (constant (F := Ideal) S2048x64 .f32 0x00000000#32) (ix2 p e)
      = ∑ k : Fin 16, lhs (ix2 p k) * rhs (ix2 k e) :=
  Cert.LibPlainDot.matmul_zero_apply dot_S2048x16_S16x64_S2048x64_1_0_0_1_n_n rfl rfl
    (fun i q => by
      unfold DotDims.lhsIdx
      rw [dif_neg (show ¬(0 : Fin S2048x16.rank) ∈ dot_S2048x16_S16x64_S2048x64_1_0_0_1_n_n.lhsBatch by decide),
        dif_pos (show (0 : Fin S2048x16.rank) ∈ dot_S2048x16_S16x64_S2048x64_1_0_0_1_n_n.lhsNonContracting by decide)]
      rfl)
    (fun i q => dot_S2048x16_S16x64_S2048x64_1_0_0_1_n_n.lhsIdx_val_of_single rfl i q)
    (fun i q => dot_S2048x16_S16x64_S2048x64_1_0_0_1_n_n.rhsIdx_val_of_single rfl i q)
    (fun i q => by
      unfold DotDims.rhsIdx
      rw [dif_neg (show ¬(1 : Fin S16x64.rank) ∈ dot_S2048x16_S16x64_S2048x64_1_0_0_1_n_n.rhsBatch by decide),
        dif_pos (show (1 : Fin S16x64.rank) ∈ dot_S2048x16_S16x64_S2048x64_1_0_0_1_n_n.rhsNonContracting by decide)]
      rfl)
    lhs rhs p e

/-- The second layer's product, 2048 × 64 by 64 × 16 into the zero block, at an entry. -/
theorem dot2_apply (lhs : FVec Ideal S2048x64 .bf16) (rhs : FVec Ideal S64x16 .bf16) (p : Fin 2048) (e : Fin 16) :
    matmul dot_S2048x64_S64x16_S2048x16_1_0_0_1_n_n none lhs rhs (constant (F := Ideal) S2048x16 .f32 0x00000000#32) (ix2 p e)
      = ∑ k : Fin 64, lhs (ix2 p k) * rhs (ix2 k e) :=
  Cert.LibPlainDot.matmul_zero_apply dot_S2048x64_S64x16_S2048x16_1_0_0_1_n_n rfl rfl
    (fun i q => by
      unfold DotDims.lhsIdx
      rw [dif_neg (show ¬(0 : Fin S2048x64.rank) ∈ dot_S2048x64_S64x16_S2048x16_1_0_0_1_n_n.lhsBatch by decide),
        dif_pos (show (0 : Fin S2048x64.rank) ∈ dot_S2048x64_S64x16_S2048x16_1_0_0_1_n_n.lhsNonContracting by decide)]
      rfl)
    (fun i q => dot_S2048x64_S64x16_S2048x16_1_0_0_1_n_n.lhsIdx_val_of_single rfl i q)
    (fun i q => dot_S2048x64_S64x16_S2048x16_1_0_0_1_n_n.rhsIdx_val_of_single rfl i q)
    (fun i q => by
      unfold DotDims.rhsIdx
      rw [dif_neg (show ¬(1 : Fin S64x16.rank) ∈ dot_S2048x64_S64x16_S2048x16_1_0_0_1_n_n.rhsBatch by decide),
        dif_pos (show (1 : Fin S64x16.rank) ∈ dot_S2048x64_S64x16_S2048x16_1_0_0_1_n_n.rhsNonContracting by decide)]
      rfl)
    lhs rhs p e

/-- Entry `(r, n, o)` of the chunk's density-net output is `hid` of the feature row of sample `(r, n)`, at `o`: the
    flattening and its inverse keep the sample, each product is a finite sum over the contracted coordinate, and the
    larger-of-zero acts entry by entry. -/
theorem hid_apply (w0 : Vec Ideal S16x64 .f32) (w1 : Vec Ideal S64x16 .f32) (x : Vec Ideal S16x128x16 .bf16)
    (r : Fin 16) (n : Fin 128) (o : Fin 16) :
    k0_pay6 (F := Ideal) (k0_pay1 w0) (k0_pay2 w1) x (ix3 r n o) = hid (mat w0) (mat w1) (fun f => x (ix3 r n f)) o := by
  unfold k0_pay6
  refine (unflat_read _ shapeCasts_S2048x16_S16x128x16 r n o (flatRow r n) rfl).trans ?_
  refine (dot2_apply _ _ (flatRow r n) o).trans ?_
  unfold hid
  refine Finset.sum_congr rfl fun h _ => ?_
  refine congrArg₂ (· * ·) ?_ rfl
  unfold relu
  refine congrArg (max · z32) ?_
  refine (dot1_apply _ _ (flatRow r n) h).trans ?_
  refine Finset.sum_congr rfl fun f _ => ?_
  refine congrArg₂ (· * ·) ?_ rfl
  exact (flat_read _ shapeCasts_S16x128x16_S2048x16 r n f (flatRow r n) rfl).trans (same_read _ _ _)

end Cert.Pay

end
-- ==== Proof.LibLane.lean ====
/-
  Lane operations of a two-axis array read at an index, over any extents `a × b`:

  * `ld_lanes`: a unit-stride load of `b` consecutive lanes from lane `off` of every row of an `a × n` block reads,
    at (r, j), the block at (r, off + j);
  * `lift_lane`: the index over row `r` of the lane-reduced shape `[a]` whose lane is `k` is (r, k);
  * `reduceAdd_lane_apply`: the sum over the lanes (`Ideal.reduceAdd` over axis 1) reads, at row `r`, the sum of the row;
  * `reduceFold_max_lane_apply`: the fold of `maximumf` over the lanes (`reduceFold` over axis 1) reads, at row `r`, the
    `Finset.fold max` of the row from the starting value;
  * `exp_apply`, `log_apply`, `absf_apply`, `cmpf_ideal_apply`: the entry-by-entry operations the library's index file
    does not list, at the extended reals.

  A `vector.multi_reduction <add>` over one axis is, by definition, `FloatOps.reduceAdd` of the source over that axis — at
  the extended reals `Ideal.reduceAdd` — and a `<maximumf>` one is `reduceFold` of `maximumf` from the accumulator's value:
  the sum lemma and the maximum lemma are stated over those two forms.
-/
import Idealize.ShloMosaic.Lib.Pipeline.FrameBody
import Idealize.ShloMosaic.Lib.Pipeline.Value
import Idealize.ShloMosaic.Lib.ValueIdx
import Idealize.ShloMosaic.PureOps.Ideal.Laws

noncomputable section

namespace Cert.LibLane

open Idealize.ShloMosaic Idealize.ShloMosaic.ValueIdx

/-! ## Entry-by-entry operations -/

theorem exp_apply {s : Shape} (v : FVec Ideal s .f32) (i : s.Idx) : exp v i = Ideal.exp (v i) := rfl
theorem log_apply {s : Shape} (v : FVec Ideal s .f32) (i : s.Idx) : log v i = Ideal.log (v i) := rfl
theorem absf_apply {s : Shape} (v : FVec Ideal s .f32) (i : s.Idx) : absf v i = max (v i) (-(v i)) := rfl
theorem cmpf_ideal_apply {s : Shape} (p : CmpFPredicate) (a b : FVec Ideal s .f32) (i : s.Idx) :
    cmpf p a b i = Ideal.cmp p (a i) (b i) := rfl

/-! ## A load of `b` consecutive lanes, from lane `off`, of every row of an `a × n` block -/

/-- The load reads, at row `r` and lane `j` of the piece, the block at row `r` and lane `off + j`. -/
theorem ld_lanes {α : Type} {a b n : ℕ} (X : (⟨2, ![a, n]⟩ : Shape).Idx → α) (off : ℕ)
    (inb : ∀ ax, (![0, off] : Fin 2 → ℕ) ax + (⟨2, ![a, b]⟩ : Shape).size ax ≤ (⟨2, ![a, n]⟩ : Shape).size ax)
    (r : Fin a) (j : Fin b) (hj : off + j.val < n) :
    (fun x => X ((Rect.unit (s := ⟨2, ![a, n]⟩) ![0, off] (⟨2, ![a, b]⟩ : Shape).size inb).idx x)) (ix2 r j)
      = X (ix2 r ⟨off + j.val, hj⟩) := by
  show X _ = X _
  congr 1
  funext ax
  apply Fin.ext
  match ax with
  | ⟨0, _⟩ => show 0 + 1 * r.val = r.val; omega
  | ⟨1, _⟩ => show off + 1 * j.val = off + j.val; omega

/-! ## A lane reduction kept as a column -/

/-- The index of an `a × b` array over row `r` whose lane is `k`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the lanes of an `a × b` array reads, at row `r`, the sum of the row. -/
theorem reduceAdd_lane_apply {a b : ℕ} (v : FVec Ideal ⟨2, ![a, b]⟩ .f32)
    (h : (⟨2, ![a, b]⟩ : Shape).Reduces [1] (⟨1, ![a]⟩ : Shape)) (r : Fin a) :
    Ideal.reduceAdd h v (ix1 r) = ∑ j : Fin b, v (ix2 r j) := by
  rw [Ideal.reduceAdd_single]
  exact Finset.sum_congr rfl fun k _ => congrArg v (lift_lane h r k)

/-- The maximum over the lanes likewise: at row `r` the fold of `max` over the row from the starting value. -/
theorem reduceFold_max_lane_apply {a b : ℕ} (v : FVec Ideal ⟨2, ![a, b]⟩ .f32)
    (h : (⟨2, ![a, b]⟩ : Shape).Reduces [1] (⟨1, ![a]⟩ : Shape)) (init : Ideal .f32) (r : Fin a) :
    reduceFold h (FloatOps.maximumf (F := Ideal) (φ := .f32)) init v (ix1 r)
      = (Finset.univ : Finset (Fin b)).fold max init fun j => v (ix2 r j) := by
  rw [reduceFold_eq_fold]
  refine (h.fold_filter_drop_single _ _ v (ix1 r)).trans ?_
  have hf : (v ∘ h.lift (ix1 r)) = fun k : Fin b => v (ix2 r k) := funext fun k => congrArg v (lift_lane h r k)
  exact congrArg (fun f => Finset.fold max init f (Finset.univ : Finset (Fin b))) hf

end Cert.LibLane

end
-- ==== Proof.LibColumn.lean ====
/-
  Two layout operations read at an index, for a sum kept as a column: a vector of `a` entries cast to an
  `a × 1` column reads, at (i, 0), the vector at `i`; and an `a × 1` column broadcast to `a × b` reads, at (p, c), the
  column's entry in row `p`, whatever the lane `c`. Both are stated over literal rank-2 indices built from their
  coordinates, so that they rewrite under a payload's other operations.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibColumnHost.lean ====
/-
  The host's two keepdims broadcasts read at an index: a vector of `a` entries placed as an `a × 1` column reads, at
  (i, 0), the vector at `i`; and an `a × 1` column spread over `b` lanes reads, at (p, c), the column's entry in row
  `p`, whatever the lane. Both are stated over literal rank-2 indices built from their coordinates.
-/
import Idealize.ShloMosaic.Lib.Pipeline.Value
import Idealize.ShloMosaic.Lib.ValueIdx

namespace Cert.LibColumnHost

open Idealize.ShloMosaic Idealize.ShloMosaic.ValueIdx

variable {α : Type}

/-- `[a]` placed along axis 0 of `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- An `[a, 1]` column spread to `[a, b]` reads, at `(p, c)`, the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnHost
-- ==== Proof.LibRowwise.lean ====
/-
  Arrays of two axes treated one row at a time, over any extents `a × b`.

  * `rowOf X p` is row `p` of the array as a function of the lane; `onRows f X` is the array each of whose rows is `f`
    of the same row of `X`; `onRows2 g X Y` the same for a function `g` of a row of `X` and the same row of `Y`.
  * `onRows_comp`, `onRows2_comp`: when an array is read through a map of indices that sends row `p` to row `ρ p` and
    keeps the lane (a block of whole rows of a larger array, a rectangle of whole rows of a block), treating the rows
    of the part is treating the rows of the whole and reading the result through the same map; `rowsRect_emb`: a
    unit-stride rectangle of `a'` whole rows from row `o` is such a map.
  * `onRows2_onRows`: a function of two rows after a function of the first row is one function of two rows.
  * a reduction over the lanes read at a row — a kernel's `vector.multi_reduction` (`laneSum_apply`: the row's sum;
    `laneMax_apply`: the fold of `max` over the row from the accumulator's value) and a host program's
    `stablehlo.reduce` (`hostSum_apply`: the initial value plus the row's sum; `hostMax_apply`: the fold of `max` from
    the initial value) — and the two spellings of a column of row values spread back over the lanes
    (`spread_apply`: a shape cast `[a] → [a, 1]` then a broadcast to `[a, b]`; `hostSpread_apply`: two
    `broadcast_in_dim`s), each of which reads, at (p, q), the column's value for row `p`.
-/
import Idealize.ShloMosaic.Lib.Pipeline.FrameBody
import Idealize.ShloMosaic.Lib.Pipeline.Value
import Idealize.ShloMosaic.Lib.ValueIdx
import Idealize.ShloMosaic.PureOps.Ideal.Laws
import proofs.«169917_j38139309589096_2_alg».proof.Proof.LibLane
import proofs.«169917_j38139309589096_2_alg».proof.Proof.LibColumn
import proofs.«169917_j38139309589096_2_alg».proof.Proof.LibColumnHost

noncomputable section

namespace Cert.LibRowwise

open Idealize.ShloMosaic Idealize.ShloMosaic.ValueIdx

/-! ## Rows -/

section Rows
variable {α : Type} {a a' b : ℕ}

/-- Row `p` of an `a × b` array. -/
def rowOf (X : (⟨2, ![a, b]⟩ : Shape).Idx → α) (p : Fin a) : Fin b → α := fun k => X (ix2 p k)

theorem rowOf_apply (X : (⟨2, ![a, b]⟩ : Shape).Idx → α) (p : Fin a) (k : Fin b) : rowOf X p k = X (ix2 p k) := rfl

/-- The array each of whose rows is `f` of the same row of `X`. -/
def onRows (f : (Fin b → α) → Fin b → α) (X : (⟨2, ![a, b]⟩ : Shape).Idx → α) : (⟨2, ![a, b]⟩ : Shape).Idx → α :=
  fun y => f (rowOf X ⟨(y 0).val, (y 0).isLt⟩) ⟨(y 1).val, (y 1).isLt⟩

/-- The array each of whose rows is `g` of the same rows of `X` and of `Y`. -/
def onRows2 (g : (Fin b → α) → (Fin b → α) → Fin b → α) (X Y : (⟨2, ![a, b]⟩ : Shape).Idx → α) :
    (⟨2, ![a, b]⟩ : Shape).Idx → α :=
  fun y => g (rowOf X ⟨(y 0).val, (y 0).isLt⟩) (rowOf Y ⟨(y 0).val, (y 0).isLt⟩) ⟨(y 1).val, (y 1).isLt⟩

theorem onRows_ix2 (f : (Fin b → α) → Fin b → α) (X : (⟨2, ![a, b]⟩ : Shape).Idx → α) (p : Fin a) (q : Fin b) :
    onRows f X (ix2 p q) = f (rowOf X p) q := rfl

theorem onRows2_ix2 (g : (Fin b → α) → (Fin b → α) → Fin b → α) (X Y : (⟨2, ![a, b]⟩ : Shape).Idx → α) (p : Fin a)
    (q : Fin b) : onRows2 g X Y (ix2 p q) = g (rowOf X p) (rowOf Y p) q := rfl

/-- Row `p` of `onRows f X` is `f` of row `p` of `X`. -/
theorem rowOf_onRows (f : (Fin b → α) → Fin b → α) (X : (⟨2, ![a, b]⟩ : Shape).Idx → α) (p : Fin a) :
    rowOf (onRows f X) p = f (rowOf X p) := rfl

/-- A function of two rows after a function of the first row. -/
theorem onRows2_onRows (g : (Fin b → α) → (Fin b → α) → Fin b → α) (f : (Fin b → α) → Fin b → α)
    (X Y : (⟨2, ![a, b]⟩ : Shape).Idx → α) : onRows2 g (onRows f X) Y = onRows2 (fun x y => g (f x) y) X Y := rfl

/-- Row `p` of an array read through a map of indices that sends row `p` to row `ρ p` and keeps the lane is row
    `ρ p` of the array. -/
theorem rowOf_comp (X : (⟨2, ![a, b]⟩ : Shape).Idx → α) (e : (⟨2, ![a', b]⟩ : Shape).Idx → (⟨2, ![a, b]⟩ : Shape).Idx)
    (ρ : Fin a' → Fin a) (he : ∀ p q, e (ix2 p q) = ix2 (ρ p) q) (p : Fin a') :
    rowOf (fun y => X (e y)) p = rowOf X (ρ p) :=
  funext fun k => congrArg X (he p k)

/-- Treating the rows of a part made of whole rows is treating the rows of the whole, read through the same map. -/
theorem onRows_comp (f : (Fin b → α) → Fin b → α) (X : (⟨2, ![a, b]⟩ : Shape).Idx → α)
    (e : (⟨2, ![a', b]⟩ : Shape).Idx → (⟨2, ![a, b]⟩ : Shape).Idx) (ρ : Fin a' → Fin a)
    (he : ∀ p q, e (ix2 p q) = ix2 (ρ p) q) (j : (⟨2, ![a', b]⟩ : Shape).Idx) :
    onRows f (fun y => X (e y)) j = onRows f X (e j) := by
  obtain ⟨p, q, rfl⟩ : ∃ (p : Fin a') (q : Fin b), j = ix2 p q := ⟨j 0, j 1, eq_ix2 j⟩
  rw [he p q, onRows_ix2, onRows_ix2, rowOf_comp X e ρ he p]

theorem onRows2_comp (g : (Fin b → α) → (Fin b → α) → Fin b → α) (X Y : (⟨2, ![a, b]⟩ : Shape).Idx → α)
    (e : (⟨2, ![a', b]⟩ : Shape).Idx → (⟨2, ![a, b]⟩ : Shape).Idx) (ρ : Fin a' → Fin a)
    (he : ∀ p q, e (ix2 p q) = ix2 (ρ p) q) (j : (⟨2, ![a', b]⟩ : Shape).Idx) :
    onRows2 g (fun y => X (e y)) (fun y => Y (e y)) j = onRows2 g X Y (e j) := by
  obtain ⟨p, q, rfl⟩ : ∃ (p : Fin a') (q : Fin b), j = ix2 p q := ⟨j 0, j 1, eq_ix2 j⟩
  rw [he p q, onRows2_ix2, onRows2_ix2, rowOf_comp X e ρ he p, rowOf_comp Y e ρ he p]

/-- A unit-stride rectangle of `a'` whole rows from row `o` of an `a × b` array sends (p, q) to (o + p, q). -/
theorem rowsRect_emb (o : ℕ)
    (inb : ∀ ax, (![o, 0] : Fin 2 → ℕ) ax + (⟨2, ![a', b]⟩ : Shape).size ax ≤ (⟨2, ![a, b]⟩ : Shape).size ax)
    (p : Fin a') (q : Fin b) (hp : o + p.val < a) :
    (Rect.unit (s := ⟨2, ![a, b]⟩) ![o, 0] (⟨2, ![a', b]⟩ : Shape).size inb).emb (ix2 p q) = ix2 ⟨o + p.val, hp⟩ q := by
  funext ax
  apply Fin.ext
  match ax with
  | ⟨0, _⟩ => show o + 1 * p.val = o + p.val; omega
  | ⟨1, _⟩ => show 0 + 1 * q.val = q.val; omega

end Rows

/-! ## A column of row values spread back over the lanes -/

section Spread
variable {α : Type} {a b : ℕ}

/-- A kernel's spelling: `[a]` cast to `[a, 1]` and broadcast to `[a, b]`. -/
theorem spread_apply (c : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ c hc) hb (ix2 p q) = c (ix1 p) :=
  (Cert.LibColumn.broadcastTo_a1_ab_apply _ hb p q).trans (Cert.LibColumn.shapeCast_a_a1_apply c hc p 0)

/-- A host program's spelling: `[a]` placed along axis 0 of `[a, 1]`, then spread to `[a, b]`. -/
theorem hostSpread_apply (c : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (q : Fin b) :
    broadcastInDim ⟨2, ![a, b]⟩ ![0, 1] h2 (broadcastInDim ⟨2, ![a, 1]⟩ ![0] h1 c) (ix2 p q) = c (ix1 p) :=
  (Cert.LibColumnHost.broadcastInDim_a1_ab_apply _ h2 p q).trans (Cert.LibColumnHost.broadcastInDim_a_a1_apply c h1 p 0)

end Spread

/-! ## Reductions over the lanes, at a row -/

section Reduce
variable {a b : ℕ}

/-- A kernel's lane sum at row `r` is the row's sum. -/
theorem laneSum_apply (v : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (r : Fin a) :
    multiReduction .add [1] ⟨1, ![a]⟩ v 0x00000000#32 h hφ hacc (ix1 r) = ∑ j : Fin b, rowOf v r j :=
  Cert.LibLane.reduceAdd_lane_apply v h r

/-- A kernel's lane maximum at row `r` is the fold of `max` over the row from the accumulator's value. -/
theorem laneMax_apply (v : FVec Ideal ⟨2, ![a, b]⟩ .f32) (h : (⟨2, ![a, b]⟩ : Shape).Reduces [1] (⟨1, ![a]⟩ : Shape))
    (hφ : FKind.Formats .f32) (w : BitVec 32) (hacc : w = FKind.maximumf.neutral .f32 hφ) (r : Fin a) :
    multiReduction .maximumf [1] ⟨1, ![a]⟩ v w h hφ hacc (ix1 r)
      = (Finset.univ : Finset (Fin b)).fold max (Ideal.ofBits .f32 w) (rowOf v r) :=
  Cert.LibLane.reduceFold_max_lane_apply v h (Ideal.ofBits .f32 w) r

/-- A host sum over the lanes at row `r` is the initial value plus the row's sum. -/
theorem hostSum_apply {u : Shape} (v : FVec Ideal ⟨2, ![a, b]⟩ .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd (F := Ideal) v init h' hu (ix1 r) = init (Shape.Idx.first hu) + ∑ j : Fin b, rowOf v r j := by
  show Ideal.hostReduceAdd h' v (init (Shape.Idx.first hu)) (ix1 r) = _
  rw [Ideal.hostReduceAdd_single h' h]
  exact congrArg (_ + ·) (Finset.sum_congr rfl fun k _ => congrArg v (Cert.LibLane.lift_lane h r k))

/-- A host maximum over the lanes at row `r` is the fold of `max` over the row from the initial value. -/
theorem hostMax_apply {u : Shape} (v : FVec Ideal ⟨2, ![a, b]⟩ .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce (FloatOps.maximumf (F := Ideal) (φ := .f32)) v init h' hu (ix1 r)
      = (Finset.univ : Finset (Fin b)).fold max (init (Shape.Idx.first hu)) (rowOf v r) := by
  rw [Host.reduce_eq_fold_single FloatOps.maximumf v init h' h hu]
  have hf : (v ∘ h.lift (ix1 r)) = rowOf v r := funext fun k => congrArg v (Cert.LibLane.lift_lane h r k)
  exact congrArg (fun f => Finset.fold max (init (Shape.Idx.first hu)) f (Finset.univ : Finset (Fin b))) hf

end Reduce

end Cert.LibRowwise

end
-- ==== Proof.LibSoftmaxRows.lean ====
/-
  The softmax of a row and its Jacobian applied to a row, over the extended reals, and the two programs' spellings of
  them applied to every row of an `a × b` array.

  For a row `x` with largest entry `M` (the fold of `max` from a starting value `lo`), `soft lo x` is the row
  `q ↦ e^(x q − M) / ∑ k, e^(x k − M)`. The Jacobian of the softmax at a point whose softmax is the row `s` is the
  symmetric matrix `diag s − s sᵀ`; applied to a row `v` it gives `jac s v = q ↦ s q · (v q − ∑ k, s k · v k)`, and
  `jac2 s v = jac s (jac s v)` applies it twice; `softJac2 lo x v` is `jac2` at the softmax of the row `x`.

  * A kernel spells the row maximum and the row sums as lane reductions kept as a column and broadcast back
    (`laneMaxSpread`, `laneSumSpread`); `laneSoft X` and `laneJac S V` are its softmax and its Jacobian product of
    whole blocks, and `laneSoft_eq`, `laneJac_eq` say they treat every row by `soft` and `jac`.
  * A host program spells them as `stablehlo.reduce` and two `broadcast_in_dim`s, the maximum also joined once more
    with the starting value (`max lo M = M`, since the fold starts from `lo`: `max_rowMax`), the sums started from an
    initial value `z`; `hostSoft_eq` and `hostJac_eq` say the same of them when `z` is zero.
-/
import proofs.«169917_j38139309589096_2_alg».proof.Proof.LibRowwise

noncomputable section

namespace Cert.LibSoftmaxRows

open Idealize.ShloMosaic Idealize.ShloMosaic.ValueIdx Cert.LibRowwise

/-! ## One row -/

section Row
variable {n : ℕ}

/-- The largest entry of a row, folded from `lo`. -/
def rowMax (lo : EReal) (x : Fin n → EReal) : EReal := (Finset.univ : Finset (Fin n)).fold max lo x

/-- The fold starts from `lo`, so it is at least `lo`. -/
theorem max_rowMax (lo : EReal) (x : Fin n → EReal) : max lo (rowMax lo x) = rowMax lo x :=
  max_eq_right ((Finset.le_fold_max lo).2 (Or.inl le_rfl))

/-- The softmax of a row, shifted by its largest entry. -/
def soft (lo : EReal) (x : Fin n → EReal) (q : Fin n) : EReal :=
  Ideal.div (Ideal.exp (x q - rowMax lo x)) (∑ k, Ideal.exp (x k - rowMax lo x))

/-- The softmax Jacobian at a point whose softmax is `s`, applied to the row `v`. -/
def jac (s v : Fin n → EReal) (q : Fin n) : EReal := s q * (v q - ∑ k, s k * v k)

/-- The Jacobian applied twice. -/
def jac2 (s v : Fin n → EReal) : Fin n → EReal := jac s (jac s v)

/-- The softmax Jacobian at the softmax of the row `x`, applied twice to the row `v`. -/
def softJac2 (lo : EReal) (x v : Fin n → EReal) : Fin n → EReal := jac2 (soft lo x) v

end Row

/-! ## A kernel's lane operations -/

section Lane
variable {a b : ℕ}
variable (h : (⟨2, ![a, b]⟩ : Shape).Reduces [1] (⟨1, ![a]⟩ : Shape))
variable (hc : (⟨1, ![a]⟩ : Shape).ShapeCasts ⟨2, ![a, 1]⟩) (hb : (⟨2, ![a, 1]⟩ : Shape).Broadcasts ⟨2, ![a, b]⟩)
variable (hφ : FKind.Formats .f32)

/-- The lane maximum of every row, kept as a column and broadcast back over the lanes. -/
def laneMaxSpread (w : BitVec 32) (hw : w = FKind.maximumf.neutral .f32 hφ) (X : FVec Ideal ⟨2, ![a, b]⟩ .f32) :
    FVec Ideal ⟨2, ![a, b]⟩ .f32 :=
  broadcastTo ⟨2, ![a, b]⟩ (shapeCast ⟨2, ![a, 1]⟩ (multiReduction .maximumf [1] ⟨1, ![a]⟩ X w h hφ hw) hc) hb

/-- The lane sum of every row, kept as a column and broadcast back over the lanes. -/
def laneSumSpread (hz : (0x00000000#32 : BitVec 32) = FKind.add.neutral .f32 hφ) (X : FVec Ideal ⟨2, ![a, b]⟩ .f32) :
    FVec Ideal ⟨2, ![a, b]⟩ .f32 :=
  broadcastTo ⟨2, ![a, b]⟩ (shapeCast ⟨2, ![a, 1]⟩ (multiReduction .add [1] ⟨1, ![a]⟩ X 0x00000000#32 h hφ hz) hc) hb

theorem laneMaxSpread_apply (w : BitVec 32) (hw : w = FKind.maximumf.neutral .f32 hφ) (X : FVec Ideal ⟨2, ![a, b]⟩ .f32)
    (p : Fin a) (q : Fin b) :
    laneMaxSpread h hc hb hφ w hw X (ix2 p q) = rowMax (Ideal.ofBits .f32 w) (rowOf X p) :=
  (spread_apply _ hc hb p q).trans (laneMax_apply X h hφ w hw p)

theorem laneSumSpread_apply (hz : (0x00000000#32 : BitVec 32) = FKind.add.neutral .f32 hφ)
    (X : FVec Ideal ⟨2, ![a, b]⟩ .f32) (p : Fin a) (q : Fin b) :
    laneSumSpread h hc hb hφ hz X (ix2 p q) = ∑ k : Fin b, rowOf X p k :=
  (spread_apply _ hc hb p q).trans (laneSum_apply X h hφ hz p)

/-- A kernel's softmax of every row of a block: subtract the row maximum, exponentiate, divide by the row sum. -/
def laneSoft (w : BitVec 32) (hw : w = FKind.maximumf.neutral .f32 hφ)
    (hz : (0x00000000#32 : BitVec 32) = FKind.add.neutral .f32 hφ) (X : FVec Ideal ⟨2, ![a, b]⟩ .f32) :
    FVec Ideal ⟨2, ![a, b]⟩ .f32 :=
  divf (exp (subf X (laneMaxSpread h hc hb hφ w hw X)))
    (laneSumSpread h hc hb hφ hz (exp (subf X (laneMaxSpread h hc hb hφ w hw X))))

/-- A kernel's Jacobian product of every row: `S · (V − rowsum (S · V))`. -/
def laneJac (hz : (0x00000000#32 : BitVec 32) = FKind.add.neutral .f32 hφ) (S V : FVec Ideal ⟨2, ![a, b]⟩ .f32) :
    FVec Ideal ⟨2, ![a, b]⟩ .f32 :=
  mulf S (subf V (laneSumSpread h hc hb hφ hz (mulf S V)))

/-- The shifted exponentials of row `p`. -/
theorem rowOf_laneShiftExp (w : BitVec 32) (hw : w = FKind.maximumf.neutral .f32 hφ) (X : FVec Ideal ⟨2, ![a, b]⟩ .f32)
    (p : Fin a) :
    rowOf (exp (subf X (laneMaxSpread h hc hb hφ w hw X))) p
      = fun k => Ideal.exp (rowOf X p k - rowMax (Ideal.ofBits .f32 w) (rowOf X p)) :=
  funext fun k => by
    show Ideal.exp (X (ix2 p k) - laneMaxSpread h hc hb hφ w hw X (ix2 p k)) = _
    rw [laneMaxSpread_apply]; rfl

theorem laneSoft_eq (w : BitVec 32) (hw : w = FKind.maximumf.neutral .f32 hφ)
    (hz : (0x00000000#32 : BitVec 32) = FKind.add.neutral .f32 hφ) (X : FVec Ideal ⟨2, ![a, b]⟩ .f32) :
    laneSoft h hc hb hφ w hw hz X = onRows (soft (Ideal.ofBits .f32 w)) X := by
  funext y
  obtain ⟨p, q, rfl⟩ : ∃ (p : Fin a) (q : Fin b), y = ix2 p q := ⟨y 0, y 1, eq_ix2 y⟩
  rw [onRows_ix2]
  show Ideal.div (rowOf (exp (subf X (laneMaxSpread h hc hb hφ w hw X))) p q)
      (laneSumSpread h hc hb hφ hz (exp (subf X (laneMaxSpread h hc hb hφ w hw X))) (ix2 p q)) = _
  rw [laneSumSpread_apply, rowOf_laneShiftExp]
  rfl

theorem laneJac_eq (hz : (0x00000000#32 : BitVec 32) = FKind.add.neutral .f32 hφ) (S V : FVec Ideal ⟨2, ![a, b]⟩ .f32) :
    laneJac h hc hb hφ hz S V = onRows2 jac S V := by
  funext y
  obtain ⟨p, q, rfl⟩ : ∃ (p : Fin a) (q : Fin b), y = ix2 p q := ⟨y 0, y 1, eq_ix2 y⟩
  rw [onRows2_ix2]
  show S (ix2 p q) * (V (ix2 p q) - laneSumSpread h hc hb hφ hz (mulf S V) (ix2 p q)) = _
  rw [laneSumSpread_apply]
  rfl

end Lane

/-! ## A host program's operations -/

section Host
variable {a b : ℕ}
variable (h' : (⟨2, ![a, b]⟩ : Shape).ReducesTo [1] (⟨1, ![a]⟩ : Shape))
variable (h : (⟨2, ![a, b]⟩ : Shape).Reduces [1] (⟨1, ![a]⟩ : Shape)) (hu : 0 < (⟨0, ![]⟩ : Shape).numel)
variable (h0 : (⟨0, ![]⟩ : Shape).BroadcastsInDim (⟨1, ![a]⟩ : Shape) (![] : Fin 0 → Fin 1))
variable (h1 : (⟨1, ![a]⟩ : Shape).BroadcastsInDim ⟨2, ![a, 1]⟩ (![0] : Fin 1 → Fin 2))
variable (h2 : (⟨2, ![a, 1]⟩ : Shape).BroadcastsInDim ⟨2, ![a, b]⟩ (![0, 1] : Fin 2 → Fin 2))

/-- The maximum of every row from the scalar `lo`, joined once more with `lo` spread over the rows, kept as a column
    and spread back over the lanes. -/
def hostMaxSpread (lo : (⟨0, ![]⟩ : Shape).Idx → Ideal .f32) (X : FVec Ideal ⟨2, ![a, b]⟩ .f32) :
    FVec Ideal ⟨2, ![a, b]⟩ .f32 :=
  broadcastInDim ⟨2, ![a, b]⟩ ![0, 1] h2 (broadcastInDim ⟨2, ![a, 1]⟩ ![0] h1
    (maximumf (F := Ideal) (broadcastInDim (⟨1, ![a]⟩ : Shape) ![] h0 lo)
      (Host.reduce (FloatOps.maximumf (F := Ideal) (φ := .f32)) X lo h' hu)))

/-- The sum of every row from the scalar `z`, kept as a column and spread back over the lanes. -/
def hostSumSpread (z : (⟨0, ![]⟩ : Shape).Idx → Ideal .f32) (X : FVec Ideal ⟨2, ![a, b]⟩ .f32) :
    FVec Ideal ⟨2, ![a, b]⟩ .f32 :=
  broadcastInDim ⟨2, ![a, b]⟩ ![0, 1] h2 (broadcastInDim ⟨2, ![a, 1]⟩ ![0] h1 (Host.reduceAdd (F := Ideal) X z h' hu))

include h in
theorem hostMaxSpread_apply (lo : (⟨0, ![]⟩ : Shape).Idx → Ideal .f32) (X : FVec Ideal ⟨2, ![a, b]⟩ .f32) (p : Fin a)
    (q : Fin b) :
    hostMaxSpread h' hu h0 h1 h2 lo X (ix2 p q) = rowMax (lo (Shape.Idx.first hu)) (rowOf X p) := by
  refine (hostSpread_apply _ h1 h2 p q).trans ?_
  show max (broadcastInDim (⟨1, ![a]⟩ : Shape) ![] h0 lo (ix1 p))
      (Host.reduce (FloatOps.maximumf (F := Ideal) (φ := .f32)) X lo h' hu (ix1 p)) = _
  rw [hostMax_apply X lo h' h hu p,
    broadcastInDim_apply _ h0 lo (ix1 p) (Shape.Idx.first hu) (fun ax => ax.elim0)]
  exact max_rowMax _ _

include h in
theorem hostSumSpread_apply (z : (⟨0, ![]⟩ : Shape).Idx → Ideal .f32) (X : FVec Ideal ⟨2, ![a, b]⟩ .f32) (p : Fin a)
    (q : Fin b) :
    hostSumSpread h' hu h1 h2 z X (ix2 p q) = z (Shape.Idx.first hu) + ∑ k : Fin b, rowOf X p k :=
  (hostSpread_apply _ h1 h2 p q).trans (hostSum_apply X z h' h hu p)

/-- A host program's softmax of every row. -/
def hostSoft (lo z : (⟨0, ![]⟩ : Shape).Idx → Ideal .f32) (X : FVec Ideal ⟨2, ![a, b]⟩ .f32) :
    FVec Ideal ⟨2, ![a, b]⟩ .f32 :=
  Host.divf (F := Ideal) (Host.exp (F := Ideal) (subf X (hostMaxSpread h' hu h0 h1 h2 lo X)))
    (hostSumSpread h' hu h1 h2 z (Host.exp (F := Ideal) (subf X (hostMaxSpread h' hu h0 h1 h2 lo X))))

/-- A host program's Jacobian product of every row. -/
def hostJac (z : (⟨0, ![]⟩ : Shape).Idx → Ideal .f32) (S V : FVec Ideal ⟨2, ![a, b]⟩ .f32) :
    FVec Ideal ⟨2, ![a, b]⟩ .f32 :=
  mulf S (subf V (hostSumSpread h' hu h1 h2 z (mulf S V)))

include h in
theorem rowOf_hostShiftExp (lo : (⟨0, ![]⟩ : Shape).Idx → Ideal .f32) (X : FVec Ideal ⟨2, ![a, b]⟩ .f32) (p : Fin a) :
    rowOf (Host.exp (F := Ideal) (subf X (hostMaxSpread h' hu h0 h1 h2 lo X))) p
      = fun k => Ideal.exp (rowOf X p k - rowMax (lo (Shape.Idx.first hu)) (rowOf X p)) :=
  funext fun k => by
    show Ideal.exp (X (ix2 p k) - hostMaxSpread h' hu h0 h1 h2 lo X (ix2 p k)) = _
    rw [hostMaxSpread_apply h' h]; rfl

include h in
theorem hostSoft_eq (lo z : (⟨0, ![]⟩ : Shape).Idx → Ideal .f32) (hz : z (Shape.Idx.first hu) = 0)
    (X : FVec Ideal ⟨2, ![a, b]⟩ .f32) :
    hostSoft h' hu h0 h1 h2 lo z X = onRows (soft (lo (Shape.Idx.first hu))) X := by
  funext y
  obtain ⟨p, q, rfl⟩ : ∃ (p : Fin a) (q : Fin b), y = ix2 p q := ⟨y 0, y 1, eq_ix2 y⟩
  rw [onRows_ix2]
  show Ideal.div (rowOf (Host.exp (F := Ideal) (subf X (hostMaxSpread h' hu h0 h1 h2 lo X))) p q)
      (hostSumSpread h' hu h1 h2 z (Host.exp (F := Ideal) (subf X (hostMaxSpread h' hu h0 h1 h2 lo X))) (ix2 p q)) = _
  rw [hostSumSpread_apply h' h, rowOf_hostShiftExp h' h, hz, zero_add]
  rfl

include h in
theorem hostJac_eq (z : (⟨0, ![]⟩ : Shape).Idx → Ideal .f32) (hz : z (Shape.Idx.first hu) = 0)
    (S V : FVec Ideal ⟨2, ![a, b]⟩ .f32) :
    hostJac h' hu h1 h2 z S V = onRows2 jac S V := by
  funext y
  obtain ⟨p, q, rfl⟩ : ∃ (p : Fin a) (q : Fin b), y = ix2 p q := ⟨y 0, y 1, eq_ix2 y⟩
  rw [onRows2_ix2]
  show S (ix2 p q) * (V (ix2 p q) - hostSumSpread h' hu h1 h2 z (mulf S V) (ix2 p q)) = _
  rw [hostSumSpread_apply h' h, hz, zero_add]
  rfl

end Host

end Cert.LibSoftmaxRows

end
-- ==== Proof.LibKeepdims3.lean ====
/-
  Layout operations of rank-3 "keepdims" arrays, and the flattening of two trailing axes, read at an index given by
  coordinates, over any extents.

  A reduction over the last axis that keeps it as a unit axis produces an array of shape [a, b, 1]; a kernel body
  reaches that shape from [a, b] by a shape cast and leaves it for [a, b, c] by a broadcast, and a host program drops
  the unit axis again by a reshape. A host program that views the two trailing axes [c, d] of a rank-4 array as one
  axis of length c·d does so by a reshape, and undoes it by the inverse reshape. Each lemma says which element of the
  operand the operation's result holds at (p, q, …): a shape cast keeps the row-major position, a broadcast reads the
  unit axis at 0.
-/
import Idealize.ShloMosaic.Lib.Pipeline.Value
import Idealize.ShloMosaic.Lib.ValueIdx

namespace Cert.Lib.Keepdims3

open Idealize.ShloMosaic Idealize.ShloMosaic.ValueIdx

variable {α : Type}

/-- A shape cast [a, b] → [a, b, 1] holds at (p, q, u) the operand's element (p, q): appending a unit axis does not
    move an element's row-major position. -/
theorem shapeCast_ab_ab1_apply {a b : Nat} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    rw [Shape.rowMajor_val_two, Shape.rowMajor_val_three]
    show p.val * b + q.val = (p.val * b + q.val) * 1 + u.val
    have := u.isLt
    omega)

/-- A shape cast [a, b, 1] → [a, b] holds at (p, q) the operand's element (p, q, 0). -/
theorem shapeCast_ab1_ab_apply {a b : Nat} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q 0) :=
  shapeCast_apply v h _ _ (by
    rw [Shape.rowMajor_val_two, Shape.rowMajor_val_three]
    show (p.val * b + q.val) * 1 + 0 = p.val * b + q.val
    omega)

/-- A broadcast [a, b, 1] → [a, b, c] holds at (p, q, k) the operand's element (p, q, 0): the unit axis is
    repeated along the new extent, the other two coordinates are kept. -/
theorem broadcastTo_ab1_abc_apply {a b c : Nat} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q 0) :=
  broadcastTo_apply v h _ _ (fun ax => by
    match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ =>
      show (0 : Nat) = if (1 : Nat) = 1 then 0 else k.val
      rw [if_pos rfl])

/-- A shape cast [a, b, c, d] → [a, b, n] with n = c·d holds at (p, q, k) the operand's element (p, q, r, s) when
    k = r·d + s: the two trailing axes are laid out row after row. -/
theorem shapeCast_abcd_abn_apply {a b c d n : Nat} (hn : n = c * d) (v : (⟨4, ![a, b, c, d]⟩ : Shape).Idx → α)
    (h : (⟨4, ![a, b, c, d]⟩ : Shape).ShapeCasts ⟨3, ![a, b, n]⟩)
    (p : Fin a) (q : Fin b) (r : Fin c) (s : Fin d) (k : Fin n) (hk : k.val = r.val * d + s.val) :
    shapeCast ⟨3, ![a, b, n]⟩ v h (ix3 p q k) = v (ix4 p q r s) :=
  shapeCast_apply v h _ _ (by
    rw [Shape.rowMajor_val_four, Shape.rowMajor_val_three]
    show ((p.val * b + q.val) * c + r.val) * d + s.val = (p.val * b + q.val) * n + k.val
    rw [hk, hn]
    ring)

/-- A shape cast [a, b, n] → [a, b, c, d] with n = c·d holds at (p, q, r, s) the operand's element (p, q, k) with
    k = r·d + s. -/
theorem shapeCast_abn_abcd_apply {a b c d n : Nat} (hn : n = c * d) (v : (⟨3, ![a, b, n]⟩ : Shape).Idx → α)
    (h : (⟨3, ![a, b, n]⟩ : Shape).ShapeCasts ⟨4, ![a, b, c, d]⟩)
    (p : Fin a) (q : Fin b) (r : Fin c) (s : Fin d) (k : Fin n) (hk : k.val = r.val * d + s.val) :
    shapeCast ⟨4, ![a, b, c, d]⟩ v h (ix4 p q r s) = v (ix3 p q k) :=
  shapeCast_apply v h _ _ (by
    rw [Shape.rowMajor_val_four, Shape.rowMajor_val_three]
    show (p.val * b + q.val) * n + k.val = ((p.val * b + q.val) * c + r.val) * d + s.val
    rw [hk, hn]
    ring)

end Cert.Lib.Keepdims3
-- ==== Proof.PaySigma.lean ====
/-
  The densities of one chunk of 16 rays, read at a sample.

  Entry 0 of each sample's row of 16 is its logit; the chunk's logits form a 16 × 128 block (ray, sample). Every row of
  the block is sent through the softmax shifted by the row's largest entry: the row maximum is folded from −∞ and joined
  once more with −∞ (which changes nothing, the fold starting there), subtracted, the exponential taken, and the result
  divided by its row sum. So entry `(r, n)` is `soft ninf` of ray `r`'s row of logits, at `n`, the logit of sample
  `(r, n')` being `hid W0 W1` of its feature row at 0.
-/
import proofs.«169917_j38139309589096_2_alg».proof.Proof.PayHid
import proofs.«169917_j38139309589096_2_alg».proof.Proof.LibSoftmaxRows
import proofs.«169917_j38139309589096_2_alg».proof.Proof.LibKeepdims3

noncomputable section

namespace Cert.Pay
open Cert.KernelIdeal Cert.KernelIdeal.Gen Cert.Spec Idealize.ShloMosaic Idealize.ShloMosaic.ValueIdx
open Cert.LibRowwise

/-- The row maxima of a 16 × 128 block as the program spells them: the lane maximum folded from the word of −∞, joined
    once more with −∞, kept as a column and spread back over the lanes. -/
def maxSpread (X : FVec Ideal S16x128 .f32) : FVec Ideal S16x128 .f32 :=
  broadcastTo S16x128 (shapeCast S16x1
    (maximumf (F := Ideal) (broadcast S16 (Scalar.ofBits .f32 0xFF800000#32))
      (multiReduction (F := Ideal) .maximumf [1] S16 X 0xFF800000#32 reduces_S16x128_S16 (.inl rfl) rfl))
    shapeCasts_S16_S16x1) broadcasts_S16x1_S16x128

/-- The row sums of a 16 × 128 block: the lane sum from the zero word, kept as a column and spread back. -/
def sumSpread (X : FVec Ideal S16x128 .f32) : FVec Ideal S16x128 .f32 :=
  broadcastTo S16x128 (shapeCast S16x1
    (multiReduction (F := Ideal) .add [1] S16 X 0x00000000#32 reduces_S16x128_S16 (.inl rfl) rfl)
    shapeCasts_S16_S16x1) broadcasts_S16x1_S16x128

/-- Joining the fold once more with its starting value changes nothing, so the spread maximum at `(r, n)` is the
    largest entry of row `r`. -/
theorem maxSpread_apply (X : FVec Ideal S16x128 .f32) (r : Fin 16) (n : Fin 128) :
    maxSpread X (ix2 r n) = rowMax ninf (rowOf X r) := by
  refine (spread_apply _ shapeCasts_S16_S16x1 broadcasts_S16x1_S16x128 r n).trans ?_
  show max ninf (multiReduction (F := Ideal) .maximumf [1] S16 X 0xFF800000#32 reduces_S16x128_S16 (.inl rfl) rfl (ix1 r)) = _
  refine (congrArg (max ninf) (laneMax_apply X reduces_S16x128_S16 _ _ _ r)).trans ?_
  exact Cert.LibSoftmaxRows.max_rowMax ninf (rowOf X r)

/-- The spread sum at `(r, n)` is the sum of row `r`. -/
theorem sumSpread_apply (X : FVec Ideal S16x128 .f32) (r : Fin 16) (n : Fin 128) :
    sumSpread X (ix2 r n) = ∑ k : Fin 128, rowOf X r k :=
  (spread_apply _ shapeCasts_S16_S16x1 broadcasts_S16x1_S16x128 r n).trans
    (laneSum_apply X reduces_S16x128_S16 _ _ r)

/-- The program's softmax of every row of a block. -/
def kSoft (X : FVec Ideal S16x128 .f32) : FVec Ideal S16x128 .f32 :=
  divf (exp (subf X (maxSpread X))) (sumSpread (exp (subf X (maxSpread X))))

/-- At `(r, n)` it is the shifted softmax of row `r`, at `n`. -/
theorem kSoft_apply (X : FVec Ideal S16x128 .f32) (r : Fin 16) (n : Fin 128) :
    kSoft X (ix2 r n) = soft ninf (rowOf X r) n := by
  show Ideal.div (Ideal.exp (X (ix2 r n) - maxSpread X (ix2 r n))) (sumSpread (exp (subf X (maxSpread X))) (ix2 r n)) = _
  rw [sumSpread_apply, maxSpread_apply]
  unfold soft
  refine congrArg (Ideal.div _) (Finset.sum_congr rfl fun k _ => ?_)
  show Ideal.exp (X (ix2 r k) - maxSpread X (ix2 r k)) = _
  rw [maxSpread_apply]
  rfl

/-- Entry 0 of every sample's row of 16, as a 16 × 128 block, at `(r, n)`. -/
theorem logit_read (Y : FVec Ideal S16x128x16 .f32) (r : Fin 16) (n : Fin 128) :
    shapeCast S16x128 (extractStridedSlice S16x128x1 ![0, 0, 0] Y slices_S16x128x16_o0_0_0_S16x128x1)
      shapeCasts_S16x128x1_S16x128 (ix2 r n) = Y (ix3 r n 0) := by
  refine (Cert.Lib.Keepdims3.shapeCast_ab1_ab_apply _ shapeCasts_S16x128x1_S16x128 r n).trans ?_
  refine extractStridedSlice_apply _ Y slices_S16x128x16_o0_0_0_S16x128x1 _ (ix3 r n (0 : Fin 16)) fun a => ?_
  match a with
  | ⟨0, _⟩ => show r.val = 0 + r.val; omega
  | ⟨1, _⟩ => show n.val = 0 + n.val; omega
  | ⟨2, _⟩ => show (0 : Nat) = 0 + 0; rfl

/-- The density of sample `n` of ray `r` of the chunk: the shifted softmax of the ray's 128 logits, at `n`. -/
theorem sigma_apply (w0 : Vec Ideal S16x64 .f32) (w1 : Vec Ideal S64x16 .f32) (x : Vec Ideal S16x128x16 .bf16)
    (r : Fin 16) (n : Fin 128) :
    k0_pay7 (F := Ideal) (k0_pay1 w0) (k0_pay2 w1) x (ix2 r n)
      = soft ninf (fun n' => hid (mat w0) (mat w1) (fun f => x (ix3 r n' f)) 0) n := by
  show kSoft (shapeCast S16x128 (extractStridedSlice S16x128x1 ![0, 0, 0]
      (k0_pay6 (F := Ideal) (k0_pay1 w0) (k0_pay2 w1) x) slices_S16x128x16_o0_0_0_S16x128x1)
      shapeCasts_S16x128x1_S16x128) (ix2 r n) = _
  refine (kSoft_apply _ r n).trans ?_
  refine congrArg (fun row => soft ninf row n) (funext fun n' => ?_)
  exact (logit_read _ r n').trans (hid_apply w0 w1 x r n' 0)

end Cert.Pay

end
-- ==== Proof.LibRank3.lean ====
/-
  Rank-3 layout operations read at an index, over any extents.

  A body that adds a row-indexed matrix, a column-indexed matrix and a vector along a common last axis forms the
  three-axis array `(p, q, k) ↦ A[p,k] + B[q,k] + v[k]` by reshaping each operand with unit axes and broadcasting it:
  `[a,b] → [a,1,b]`, `[a,b] → [1,a,b]` (in the library), `[c] → [1,1,c]`, then `[a,1,c]`, `[1,b,c]`, `[1,1,c]` `→ [a,b,c]`;
  a sum over the last axis brings it back to `[a,b]`. Each lemma reads one of these operations at an index given by
  its coordinates: a reshape keeps the row-major position, a broadcast reads coordinate `0` on a unit axis.
  Also the column form `[a,1] → [a]`.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    have huv : u.val * 1 + v.val = 0 := by omega
    rw [huv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(p, q, k)`, the operand at `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- A `[1, 1, c]` array broadcast to `[a, b, c]` reads, at `(p, q, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- On the extended reals a sum over the LAST axis of an `[a, b, c]` array is, at `(p, q)`, the sum over `k` of the
    array at `(p, q, k)`. -/
theorem multiReduction_add_last_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  show ∑ k : Fin c, src (h.lift (ix2 p q) k) = _
  refine Finset.sum_congr rfl fun k _ => congrArg src (funext fun ax => Fin.ext ?_)
  match ax with
  | ⟨0, _⟩ => rfl
  | ⟨1, _⟩ => rfl
  | ⟨2, _⟩ => rfl

end Cert.LibRank3

end
-- ==== Proof.PayColor.lean ====
/-
  The colour net of one chunk of 16 rays, read at a sample and a channel.

  The chunk's density-net output is a 16 × 128 × 16 array (ray, sample, entry). Entries 1 … 15 of every sample are cut
  out and laid row after row as 2048 rows of 15, row `r · 128 + n` being sample `n` of ray `r`, and multiplied by the 15
  geometry rows of the first colour weight matrix. The 16 rays' direction rows (16 numbers each) are multiplied by its
  16 direction rows; the result, one row of 64 per ray, is repeated for each of the ray's 128 samples. The two parts
  are added, the larger of the sum and zero is taken entry by entry, and the 2048 rows of 64 go through the second
  layer (again the larger of zero), the third layer and the logistic function. The 2048 rows of 3 are read back as
  16 × 128 × 3 and the last two axes are swapped, so the chunk's colour output is indexed (ray, channel, sample).
  Rounding a weight or an intermediate block to the narrower format is the identity over the extended reals, and so
  is recasting an array to its own shape. Hence entry `(r, c, n)` of the output is `col` of ray `r`'s direction numbers
  and of entries 1 … 15 of `hid` at sample `(r, n)`, at channel `c`.
-/
import proofs.«169917_j38139309589096_2_alg».proof.Proof.Gen.KernelIdeal.Skeleton
import proofs.«169917_j38139309589096_2_alg».proof.Proof.Spec
import proofs.«169917_j38139309589096_2_alg».proof.Proof.LibPlainDot
import proofs.«169917_j38139309589096_2_alg».proof.Proof.LibRank3
import proofs.«169917_j38139309589096_2_alg».proof.Proof.PayHid
import Idealize.ShloMosaic.Lib.Pipeline.Value
import Idealize.ShloMosaic.Lib.ValueIdx

noncomputable section

namespace Cert.Pay.Color
open Cert.KernelIdeal Cert.KernelIdeal.Gen Cert.Spec Idealize.ShloMosaic Idealize.ShloMosaic.ValueIdx

/-- The direction part's product `[16,16]·[16,64]` at `(p, e)`: the sum over the 16 direction numbers. -/
theorem dot_dir_apply (l : FVec Ideal S16x16 .bf16) (w : FVec Ideal S16x64 .bf16) (p : Fin 16) (e : Fin 64) :
    matmul dot_S16x16_S16x64_S16x64_1_0_0_1_n_n none l w (constant (F := Ideal) S16x64 .f32 0x00000000#32) (ix2 p e)
      = ∑ k : Fin 16, l (ix2 p k) * w (ix2 k e) :=
  Cert.LibPlainDot.matmul_zero_apply dot_S16x16_S16x64_S16x64_1_0_0_1_n_n rfl rfl
    (fun i q => by
      unfold DotDims.lhsIdx
      rw [dif_neg (show ¬(0 : Fin S16x16.rank) ∈ dot_S16x16_S16x64_S16x64_1_0_0_1_n_n.lhsBatch by decide),
        dif_pos (show (0 : Fin S16x16.rank) ∈ dot_S16x16_S16x64_S16x64_1_0_0_1_n_n.lhsNonContracting by decide)]
      rfl)
    (fun i q => dot_S16x16_S16x64_S16x64_1_0_0_1_n_n.lhsIdx_val_of_single rfl i q)
    (fun i q => dot_S16x16_S16x64_S16x64_1_0_0_1_n_n.rhsIdx_val_of_single rfl i q)
    (fun i q => by
      unfold DotDims.rhsIdx
      rw [dif_neg (show ¬(1 : Fin S16x64.rank) ∈ dot_S16x16_S16x64_S16x64_1_0_0_1_n_n.rhsBatch by decide),
        dif_pos (show (1 : Fin S16x64.rank) ∈ dot_S16x16_S16x64_S16x64_1_0_0_1_n_n.rhsNonContracting by decide)]
      rfl)
    l w p e

/-- The geometry part's product `[2048,15]·[15,64]` at `(p, e)`: the sum over the 15 geometry entries. -/
theorem dot_geo_apply (l : FVec Ideal S2048x15 .bf16) (w : FVec Ideal S15x64 .bf16) (p : Fin 2048) (e : Fin 64) :
    matmul dot_S2048x15_S15x64_S2048x64_1_0_0_1_n_n none l w (constant (F := Ideal) S2048x64 .f32 0x00000000#32) (ix2 p e)
      = ∑ k : Fin 15, l (ix2 p k) * w (ix2 k e) :=
  Cert.LibPlainDot.matmul_zero_apply dot_S2048x15_S15x64_S2048x64_1_0_0_1_n_n rfl rfl
    (fun i q => by
      unfold DotDims.lhsIdx
      rw [dif_neg (show ¬(0 : Fin S2048x15.rank) ∈ dot_S2048x15_S15x64_S2048x64_1_0_0_1_n_n.lhsBatch by decide),
        dif_pos (show (0 : Fin S2048x15.rank) ∈ dot_S2048x15_S15x64_S2048x64_1_0_0_1_n_n.lhsNonContracting by decide)]
      rfl)
    (fun i q => dot_S2048x15_S15x64_S2048x64_1_0_0_1_n_n.lhsIdx_val_of_single rfl i q)
    (fun i q => dot_S2048x15_S15x64_S2048x64_1_0_0_1_n_n.rhsIdx_val_of_single rfl i q)
    (fun i q => by
      unfold DotDims.rhsIdx
      rw [dif_neg (show ¬(1 : Fin S15x64.rank) ∈ dot_S2048x15_S15x64_S2048x64_1_0_0_1_n_n.rhsBatch by decide),
        dif_pos (show (1 : Fin S15x64.rank) ∈ dot_S2048x15_S15x64_S2048x64_1_0_0_1_n_n.rhsNonContracting by decide)]
      rfl)
    l w p e

/-- The second colour layer's product `[2048,64]·[64,64]` at `(p, e)`. -/
theorem dot_c1_apply (l : FVec Ideal S2048x64 .bf16) (w : FVec Ideal S64x64 .bf16) (p : Fin 2048) (e : Fin 64) :
    matmul dot_S2048x64_S64x64_S2048x64_1_0_0_1_n_n none l w (constant (F := Ideal) S2048x64 .f32 0x00000000#32) (ix2 p e)
      = ∑ k : Fin 64, l (ix2 p k) * w (ix2 k e) :=
  Cert.LibPlainDot.matmul_zero_apply dot_S2048x64_S64x64_S2048x64_1_0_0_1_n_n rfl rfl
    (fun i q => by
      unfold DotDims.lhsIdx
      rw [dif_neg (show ¬(0 : Fin S2048x64.rank) ∈ dot_S2048x64_S64x64_S2048x64_1_0_0_1_n_n.lhsBatch by decide),
        dif_pos (show (0 : Fin S2048x64.rank) ∈ dot_S2048x64_S64x64_S2048x64_1_0_0_1_n_n.lhsNonContracting by decide)]
      rfl)
    (fun i q => dot_S2048x64_S64x64_S2048x64_1_0_0_1_n_n.lhsIdx_val_of_single rfl i q)
    (fun i q => dot_S2048x64_S64x64_S2048x64_1_0_0_1_n_n.rhsIdx_val_of_single rfl i q)
    (fun i q => by
      unfold DotDims.rhsIdx
      rw [dif_neg (show ¬(1 : Fin S64x64.rank) ∈ dot_S2048x64_S64x64_S2048x64_1_0_0_1_n_n.rhsBatch by decide),
        dif_pos (show (1 : Fin S64x64.rank) ∈ dot_S2048x64_S64x64_S2048x64_1_0_0_1_n_n.rhsNonContracting by decide)]
      rfl)
    l w p e

/-- The third colour layer's product `[2048,64]·[64,3]` at `(p, e)`. -/
theorem dot_c2_apply (l : FVec Ideal S2048x64 .bf16) (w : FVec Ideal S64x3 .bf16) (p : Fin 2048) (e : Fin 3) :
    matmul dot_S2048x64_S64x3_S2048x3_1_0_0_1_n_n none l w (constant (F := Ideal) S2048x3 .f32 0x00000000#32) (ix2 p e)
      = ∑ k : Fin 64, l (ix2 p k) * w (ix2 k e) :=
  Cert.LibPlainDot.matmul_zero_apply dot_S2048x64_S64x3_S2048x3_1_0_0_1_n_n rfl rfl
    (fun i q => by
      unfold DotDims.lhsIdx
      rw [dif_neg (show ¬(0 : Fin S2048x64.rank) ∈ dot_S2048x64_S64x3_S2048x3_1_0_0_1_n_n.lhsBatch by decide),
        dif_pos (show (0 : Fin S2048x64.rank) ∈ dot_S2048x64_S64x3_S2048x3_1_0_0_1_n_n.lhsNonContracting by decide)]
      rfl)
    (fun i q => dot_S2048x64_S64x3_S2048x3_1_0_0_1_n_n.lhsIdx_val_of_single rfl i q)
    (fun i q => dot_S2048x64_S64x3_S2048x3_1_0_0_1_n_n.rhsIdx_val_of_single rfl i q)
    (fun i q => by
      unfold DotDims.rhsIdx
      rw [dif_neg (show ¬(1 : Fin S64x3.rank) ∈ dot_S2048x64_S64x3_S2048x3_1_0_0_1_n_n.rhsBatch by decide),
        dif_pos (show (1 : Fin S64x3.rank) ∈ dot_S2048x64_S64x3_S2048x3_1_0_0_1_n_n.rhsNonContracting by decide)]
      rfl)
    l w p e

/-- The last two colour layers and the logistic function, on a variable first-layer block: channel `c` of sample
    `(r, n)` reads row `r·128 + n` of the block. The closing transpose swaps the channel and the sample axes, and the
    reshape before it reads the flat row of the sample. -/
theorem pay5_apply (c1 : Vec Ideal S64x64 .f32) (c2 : Vec Ideal S64x3 .f32) (v58 : FVec Ideal S2048x64 .bf16)
    (r : Fin 16) (c : Fin 3) (n : Fin 128) :
    k0_pay5 (F := Ideal) c1 c2 v58 (ix3 r c n)
      = Ideal.logistic (∑ j : Fin 64, relu (∑ i : Fin 64, v58 (ix2 (flatRow r n) i) * c1 (ix2 i j)) * c2 (ix2 j c)) := by
  unfold k0_pay5
  refine (transpose_apply _ _ _ (ix3 r c n) (ix3 r n c) (fun b => by
    match b with
    | ⟨0, _⟩ => rfl
    | ⟨1, _⟩ => rfl
    | ⟨2, _⟩ => rfl)).trans ?_
  refine (unflat_read _ shapeCasts_S2048x3_S16x128x3 r n c (flatRow r n) rfl).trans ?_
  show Ideal.logistic _ = _
  refine congrArg Ideal.logistic ?_
  refine (dot_c2_apply _ _ (flatRow r n) c).trans ?_
  refine Finset.sum_congr rfl fun j _ => ?_
  refine congrArg (· * c2 (ix2 j c)) ?_
  show max _ _ = relu _
  refine congrArg (fun t => max t z32) ?_
  exact dot_c1_apply _ _ (flatRow r n) j

/-- The colour net's first layer on one block: row `r·128 + n`, column `i` is the larger-of-zero of the direction
    part (ray `r`'s 16 direction numbers against the direction rows, the same for every sample of the ray) plus the
    geometry part (entries 1 … 15 of the density net's output for sample `(r, n)` against the geometry rows). -/
theorem pay8_apply (v1 : FVec Ideal S16x64 .bf16) (v3 : FVec Ideal S64x16 .bf16) (v6 : FVec Ideal S16x64 .bf16)
    (v9 : FVec Ideal S15x64 .bf16) (v18 : Vec Ideal S16x128x16 .bf16) (v44 : Vec Ideal S16x16 .f32)
    (r : Fin 16) (n : Fin 128) (i : Fin 64) :
    k0_pay8 (F := Ideal) v1 v3 v6 v9 v18 v44 (ix2 (flatRow r n) i)
      = relu ((∑ a : Fin 16, v44 (ix2 r a) * v6 (ix2 a i))
          + ∑ b : Fin 15, k0_pay6 (F := Ideal) v1 v3 v18 (ix3 r n (⟨b.val + 1, by omega⟩ : Fin 16)) * v9 (ix2 b i)) := by
  unfold k0_pay8
  refine (truncf_apply (φ := .f32) (ψ := .bf16) _ bitsLt_bf16_f32 _).trans ?_
  refine (flat_read _ shapeCasts_S16x128x64_S2048x64 r n i (flatRow r n) rfl).trans ?_
  show max _ _ = relu _
  refine congrArg (fun t => max t z32) ?_
  show _ + _ = _
  refine congrArg₂ (· + ·) ?_ ?_
  · refine (Cert.LibRank3.broadcastTo_a1c_abc_apply _ broadcasts_S16x1x64_S16x128x64 r n i).trans ?_
    refine (same_read _ shapeCasts_S16x1x64_S16x1x64 _).trans ?_
    refine (Cert.LibRank3.shapeCast_ab_a1b_apply _ shapeCasts_S16x64_S16x1x64 r (0 : Fin 1) i).trans ?_
    exact dot_dir_apply _ _ r i
  · refine (unflat_read _ shapeCasts_S2048x64_S16x128x64 r n i (flatRow r n) rfl).trans ?_
    refine (dot_geo_apply _ _ (flatRow r n) i).trans ?_
    refine Finset.sum_congr rfl fun b _ => ?_
    refine congrArg (· * v9 (ix2 b i)) ?_
    refine (truncf_apply (φ := .f32) (ψ := .bf16) _ bitsLt_bf16_f32 _).trans ?_
    refine (flat_read _ shapeCasts_S16x128x15_S2048x15 r n b (flatRow r n) rfl).trans ?_
    exact extractStridedSlice_apply _ _ slices_S16x128x16_o0_0_1_S16x128x15 (ix3 r n b)
      (ix3 r n (⟨b.val + 1, by omega⟩ : Fin 16)) (fun a => by
      match a with
      | ⟨0, _⟩ => show r.val = 0 + r.val; omega
      | ⟨1, _⟩ => show n.val = 0 + n.val; omega
      | ⟨2, _⟩ => show b.val + 1 = 1 + b.val; omega)

end Cert.Pay.Color

namespace Cert.Pay
open Cert.KernelIdeal Cert.KernelIdeal.Gen Cert.Spec Idealize.ShloMosaic Idealize.ShloMosaic.ValueIdx

/-- Channel `c` of sample `(r, n)` of the chunk's colour output is the colour net `col` on ray `r`'s direction numbers
    and on entries 1 … 15 of the density net's output for that sample: the first layer is read row by row, the density
    net's output by its own reading at a sample, and rounding a weight to the narrower format (or recasting it to its
    own shape) is the identity over the extended reals. -/
theorem color_apply (w0 : Vec Ideal S16x64 .f32) (w1 : Vec Ideal S64x16 .f32) (c0d : Vec Ideal S16x64 .f32)
    (c0g : Vec Ideal S15x64 .f32) (c1 : Vec Ideal S64x64 .f32) (c2 : Vec Ideal S64x3 .f32)
    (x : Vec Ideal S16x128x16 .bf16) (dd : Vec Ideal S16x16 .f32) (r : Fin 16) (c : Fin 3) (n : Fin 128) :
    k0_pay5 (F := Ideal) c1 c2 (k0_pay8 (k0_pay1 w0) (k0_pay2 w1) (k0_pay3 c0d) (k0_pay4 c0g) x dd) (ix3 r c n)
      = col (mat c0d) (mat c0g) (mat c1) (mat c2) (fun a => dd (ix2 r a))
          (geo (hid (mat w0) (mat w1) (fun f => x (ix3 r n f)))) c := by
  refine (Color.pay5_apply c1 c2 _ r c n).trans ?_
  unfold col
  refine congrArg Ideal.logistic (Finset.sum_congr rfl fun j _ => ?_)
  refine congrArg (fun t => relu t * mat c2 j c) (Finset.sum_congr rfl fun i _ => ?_)
  refine congrArg (· * mat c1 i j) ?_
  refine (Color.pay8_apply _ _ _ _ x dd r n i).trans ?_
  refine congrArg relu (congrArg₂ (· + ·) (Finset.sum_congr rfl fun a _ => ?_) (Finset.sum_congr rfl fun b _ => ?_))
  · refine congrArg (dd (ix2 r a) * ·) ?_
    unfold k0_pay3
    exact (truncf_apply (φ := .f32) (ψ := .bf16) _ bitsLt_bf16_f32 _).trans (same_read _ _ _)
  · refine congrArg₂ (· * ·) (hid_apply w0 w1 x r n _) ?_
    unfold k0_pay4
    exact (truncf_apply (φ := .f32) (ψ := .bf16) _ bitsLt_bf16_f32 _).trans (same_read _ _ _)

end Cert.Pay

end
-- ==== Proof.RefHid.lean ====
/-
  The density net of the reference program, one sample at a time.

  The reference multiplies the feature array [4096, 128, 16] by the first weight matrix, takes the larger of each entry
  and zero, and multiplies by the second weight matrix. Read at sample (b, n) and output o this is
  `hid W0 W1 x o = ∑ₕ relu (∑_f x f · W0 f h) · W1 h o` with `x` the sample's feature row.
-/
import proofs.«169917_j38139309589096_2_alg».proof.Proof.Gen.ReferenceIdeal.Read
import proofs.«169917_j38139309589096_2_alg».proof.Proof.Spec

noncomputable section

namespace Cert.Ref

open Cert.ReferenceIdeal Cert.ReferenceIdeal.Read Cert.Spec Idealize.ShloMosaic Idealize.ShloMosaic.ValueIdx

/-- The hidden layer after the larger-of-zero, at sample (b, n) and hidden unit h. -/
theorem hidden_apply (x0 : (⟨S4096x128x4, .i32⟩ : BufTy).Contents (Elt Ideal)) (x2 : (⟨S524288x4, .f32⟩ : BufTy).Contents (Elt Ideal))
    (x3 : (⟨S16x64, .f32⟩ : BufTy).Contents (Elt Ideal)) (b : Fin 4096) (n : Fin 128) (h : Fin 64) :
    val_main_v9 (F := Ideal) x0 x2 x3 (ix3 b n h)
      = relu (∑ f : Fin 16, val_main_v7 (F := Ideal) x0 x2 (ix3 b n f) * mat x3 f h) := by
  have el : ∀ k : Fin 16, lidx_main_v8 (ix3 b n h) k = ix3 b n k := fun k => funext fun a => Fin.ext (by
    match a with | ⟨0, _⟩ => rfl | ⟨1, _⟩ => rfl | ⟨2, _⟩ => rfl)
  have er : ∀ k : Fin 16, ridx_main_v8 (ix3 b n h) k = ix2 k h := fun k => funext fun a => Fin.ext (by
    match a with | ⟨0, _⟩ => rfl | ⟨1, _⟩ => rfl)
  rw [val_main_v9_apply, val_main_v8_apply, val_main_call0_v0_apply, val_main_call0_cst_apply]
  simp only [el, er]
  rfl

/-- The density net's output row, at sample (b, n) and output o. -/
theorem hid_apply (x0 : (⟨S4096x128x4, .i32⟩ : BufTy).Contents (Elt Ideal)) (x2 : (⟨S524288x4, .f32⟩ : BufTy).Contents (Elt Ideal))
    (x3 : (⟨S16x64, .f32⟩ : BufTy).Contents (Elt Ideal)) (x4 : (⟨S64x16, .f32⟩ : BufTy).Contents (Elt Ideal))
    (b : Fin 4096) (n : Fin 128) (o : Fin 16) :
    val_main_v10 (F := Ideal) x0 x2 x3 x4 (ix3 b n o)
      = hid (mat x3) (mat x4) (fun f => val_main_v7 (F := Ideal) x0 x2 (ix3 b n f)) o := by
  have el : ∀ k : Fin 64, lidx_main_v10 (ix3 b n o) k = ix3 b n k := fun k => funext fun a => Fin.ext (by
    match a with | ⟨0, _⟩ => rfl | ⟨1, _⟩ => rfl | ⟨2, _⟩ => rfl)
  have er : ∀ k : Fin 64, ridx_main_v10 (ix3 b n o) k = ix2 k o := fun k => funext fun a => Fin.ext (by
    match a with | ⟨0, _⟩ => rfl | ⟨1, _⟩ => rfl)
  rw [val_main_v10_apply]
  simp only [el, er, hidden_apply]
  rfl

end Cert.Ref

end
-- ==== Proof.RefSigma.lean ====
/-
  The densities of the reference program, one sample at a time.

  The reference takes entry 0 of the density net's output row of every sample (a slice and a reshape), and over the 128
  samples of each ray forms the softmax shifted by the largest entry: the maximum is folded from −∞ and joined once more
  with −∞, the sum is started from zero, and both are spread back over the samples. So the density of sample (b, n) is
  `soft` of the ray's row of logits at n.
-/
import proofs.«169917_j38139309589096_2_alg».proof.Proof.RefHid
import proofs.«169917_j38139309589096_2_alg».proof.Proof.LibSoftmaxRows

noncomputable section

namespace Cert.Ref

open Cert.ReferenceIdeal Cert.ReferenceIdeal.Read Cert.Spec Idealize.ShloMosaic Idealize.ShloMosaic.ValueIdx

/-- The logit array at (b, n) is entry 0 of the density net's output row of that sample. -/
theorem logit_apply (x0 : (⟨S4096x128x4, .i32⟩ : BufTy).Contents (Elt Ideal)) (x2 : (⟨S524288x4, .f32⟩ : BufTy).Contents (Elt Ideal))
    (x3 : (⟨S16x64, .f32⟩ : BufTy).Contents (Elt Ideal)) (x4 : (⟨S64x16, .f32⟩ : BufTy).Contents (Elt Ideal))
    (b : Fin 4096) (n : Fin 128) :
    val_main_v12 (F := Ideal) x0 x2 x3 x4 (ix2 b n)
      = hid (mat x3) (mat x4) (fun f => val_main_v7 (F := Ideal) x0 x2 (ix3 b n f)) 0 := by
  have e : idx_main_v11 (idx_main_v12 (ix2 b n)) = ix3 b n (0 : Fin 16) := funext fun a => Fin.ext (by
    have hb : b.val < 4096 := b.isLt
    have hn : n.val < 128 := n.isLt
    match a with
    | ⟨0, _⟩ => show (b.val * 128 + n.val) / 128 = b.val; omega
    | ⟨1, _⟩ => show (b.val * 128 + n.val) / 1 % 128 = n.val; omega
    | ⟨2, _⟩ => rfl)
  rw [val_main_v12_apply, val_main_v11_apply, e, hid_apply]

/-- The axis-1 reduction of a 4096 × 128 array, in the form the row-wise lemmas ask for. -/
theorem reduces_rows : (⟨2, ![4096, 128]⟩ : Shape).Reduces [1] (⟨1, ![4096]⟩ : Shape) := by decide

/-- The density array is the host softmax of the logit array. -/
theorem density_eq_hostSoft (x0 : (⟨S4096x128x4, .i32⟩ : BufTy).Contents (Elt Ideal)) (x2 : (⟨S524288x4, .f32⟩ : BufTy).Contents (Elt Ideal))
    (x3 : (⟨S16x64, .f32⟩ : BufTy).Contents (Elt Ideal)) (x4 : (⟨S64x16, .f32⟩ : BufTy).Contents (Elt Ideal)) :
    val_main_v23 (F := Ideal) x0 x2 x3 x4
      = Cert.LibSoftmaxRows.hostSoft Gen.reducesTo_S4096x128_S4096_d1 Gen.h_S_ Gen.bcast_S_S4096 Gen.bcast_S4096_S4096x1_0
          Gen.bcast_S4096x1_S4096x128_0_1 (val_main_cst (F := Ideal)) (val_main_cst_2 (F := Ideal))
          (val_main_v12 (F := Ideal) x0 x2 x3 x4) := rfl

theorem sigma_apply (x0 : (⟨S4096x128x4, .i32⟩ : BufTy).Contents (Elt Ideal)) (x2 : (⟨S524288x4, .f32⟩ : BufTy).Contents (Elt Ideal))
    (x3 : (⟨S16x64, .f32⟩ : BufTy).Contents (Elt Ideal)) (x4 : (⟨S64x16, .f32⟩ : BufTy).Contents (Elt Ideal))
    (b : Fin 4096) (n : Fin 128) :
    val_main_v23 (F := Ideal) x0 x2 x3 x4 (ix2 b n)
      = sigmaAt (val_main_v7 (F := Ideal) x0 x2) (mat x3) (mat x4) b n := by
  rw [density_eq_hostSoft,
    Cert.LibSoftmaxRows.hostSoft_eq Gen.reducesTo_S4096x128_S4096_d1 reduces_rows Gen.h_S_ Gen.bcast_S_S4096
      Gen.bcast_S4096_S4096x1_0 Gen.bcast_S4096x1_S4096x128_0_1 (val_main_cst (F := Ideal)) (val_main_cst_2 (F := Ideal))
      Ideal.ofBits_zero_f32,
    Cert.LibRowwise.onRows_ix2]
  have hrow : Cert.LibRowwise.rowOf (val_main_v12 (F := Ideal) x0 x2 x3 x4) b
      = fun n' => hid (mat x3) (mat x4) (fun f => val_main_v7 (F := Ideal) x0 x2 (ix3 b n' f)) 0 :=
    funext fun n' => logit_apply x0 x2 x3 x4 b n'
  rw [hrow]
  rfl

end Cert.Ref

end
-- ==== Proof.LibGateFunctions.lean ====
/-
  Two gate functions, each in the two spellings programs use, over the extended reals.

  The logistic function is 1 / (1 + exp (−w)) by definition, so a program that writes that quotient out, with the
  single-precision word of 1.0 for both ones, computes the logistic function of w, for every extended real w.

  softplus w is taken in the form log-add-exp of w and 0 has: max w 0 + log (1 + exp (−|w − 0|)), with |a| = max a (−a).
  Programs guard that expression by the test "w − 0 differs from itself" (true only of a value that is not a number),
  returning w + 0 when it holds. No extended real differs from itself, whether the comparison is the ordered or the
  unordered "not equal", so the guard selects the unguarded branch; and a negation written 0 − a is −a. Hence both guarded
  spellings are softplus w, for every extended real w.
-/
import Idealize.ShloMosaic.Lib.ValueIdx
import Idealize.ShloMosaic.PureOps.Ideal.Laws

noncomputable section

namespace Cert.LibGateFunctions

open Idealize.ShloMosaic Idealize.ShloMosaic.ValueIdx

/-- The single-precision word of 1.0 denotes the real number 1. -/
theorem one_f32 : Ideal.ofBits .f32 0x3F800000#32 = 1 := by
  simp [Ideal.ofBits, Ideal.ieee, -EReal.coe_mul]; norm_num

/-- The logistic function written out as the quotient 1 / (1 + exp (−w)) is the logistic function. -/
theorem logistic_quotient (w : EReal) :
    Ideal.div (Ideal.ofBits .f32 0x3F800000#32) (Ideal.ofBits .f32 0x3F800000#32 + Ideal.exp (-w)) = Ideal.logistic w := by
  rw [one_f32]; rfl

/-- softplus, in the form log-add-exp of w and 0 takes. -/
def softplus (w : EReal) : EReal := max w 0 + Ideal.log1p (Ideal.exp (-(max (w - 0) (-(w - 0)))))

/-- No extended real differs from itself: the ordered "not equal" of d with d is the bit 0 … -/
theorem ne_self_ordered (d : EReal) : Ideal.cmp .one d d = 0#1 := by simp [Ideal.cmp]
/-- … and so is the unordered one. -/
theorem ne_self_unordered (d : EReal) : Ideal.cmp .une d d = 0#1 := by simp [Ideal.cmp]

/-- A guarded softplus whose guard is the ordered comparison and whose negation is written 0 − a. -/
theorem softplus_guard_sub (w : EReal) :
    Scalar.select (Ideal.cmp .one (w - Ideal.ofBits .f32 0x00000000#32) (w - Ideal.ofBits .f32 0x00000000#32))
        (w + Ideal.ofBits .f32 0x00000000#32)
        (max w (Ideal.ofBits .f32 0x00000000#32)
          + Ideal.log1p (Ideal.exp (Ideal.ofBits .f32 0x00000000#32
              - max (w - Ideal.ofBits .f32 0x00000000#32) (-(w - Ideal.ofBits .f32 0x00000000#32)))))
      = softplus w := by
  rw [ne_self_ordered, select_zero, Ideal.ofBits_zero_f32, zero_sub]; rfl

/-- A guarded softplus whose guard is the unordered comparison and whose negation is written −a. -/
theorem softplus_guard_neg (w : EReal) :
    Scalar.select (Ideal.cmp .une (w - Ideal.ofBits .f32 0x00000000#32) (w - Ideal.ofBits .f32 0x00000000#32))
        (w + Ideal.ofBits .f32 0x00000000#32)
        (max w (Ideal.ofBits .f32 0x00000000#32)
          + Ideal.log1p (Ideal.exp (-(max (w - Ideal.ofBits .f32 0x00000000#32) (-(w - Ideal.ofBits .f32 0x00000000#32))))))
      = softplus w := by
  rw [ne_self_unordered, select_zero, Ideal.ofBits_zero_f32]; rfl

end Cert.LibGateFunctions

end
-- ==== Proof.RefColor.lean ====
/-
  The colours of the reference program, one sample at a time.

  The reference lays the ray's 16 direction numbers (the same for every sample of the ray) and entries 1 … 15 of the
  density net's output row side by side into a row of 31, multiplies it by the 31-row first weight matrix, and goes on
  with the larger-of-zero, two more products and the quotient 1 / (1 + exp (−z)). A sum over the 31 joined entries is
  the sum over the first 16 plus the sum over the last 15, which is the direction part plus the geometry part of `col`;
  the quotient is the logistic function.
-/
import proofs.«169917_j38139309589096_2_alg».proof.Proof.RefHid
import proofs.«169917_j38139309589096_2_alg».proof.Proof.LibGateFunctions

noncomputable section

namespace Cert.Ref

open Cert.ReferenceIdeal Cert.ReferenceIdeal.Read Cert.Spec Idealize.ShloMosaic Idealize.ShloMosaic.ValueIdx

/-- A sum over 31 entries is the sum over the first 16 plus the sum over the last 15. -/
theorem sum_sixteen_fifteen (F : Fin 31 → EReal) :
    ∑ k : Fin 31, F k = (∑ a : Fin 16, F ⟨a.val, by omega⟩) + ∑ g : Fin 15, F ⟨16 + g.val, by omega⟩ :=
  Fin.sum_univ_add (a := 16) (b := 15) F

/-- The direction array spread over the samples, at (b, n, a), is the ray's direction entry a. -/
theorem dir_apply (x1 : (⟨S4096x16, .f32⟩ : BufTy).Contents (Elt Ideal)) (b : Fin 4096) (n : Fin 128) (a : Fin 16) :
    val_main_v26 (F := Ideal) x1 (ix3 b n a) = x1 (ix2 b a) := by
  have e : idx_main_v25 (idx_main_v26 (ix3 b n a)) = ix2 b a := funext fun d => Fin.ext (by
    match d with | ⟨0, _⟩ => rfl | ⟨1, _⟩ => rfl)
  rw [val_main_v26_apply, val_main_v25_apply, e]

/-- Entries 1 … 15 of the density net's output row, at (b, n, g). -/
theorem geo_apply (x0 : (⟨S4096x128x4, .i32⟩ : BufTy).Contents (Elt Ideal)) (x2 : (⟨S524288x4, .f32⟩ : BufTy).Contents (Elt Ideal))
    (x3 : (⟨S16x64, .f32⟩ : BufTy).Contents (Elt Ideal)) (x4 : (⟨S64x16, .f32⟩ : BufTy).Contents (Elt Ideal))
    (b : Fin 4096) (n : Fin 128) (g : Fin 15) :
    val_main_v24 (F := Ideal) x0 x2 x3 x4 (ix3 b n g) = geo (hid (mat x3) (mat x4) (fun f => val_main_v7 (F := Ideal) x0 x2 (ix3 b n f))) g := by
  have e : idx_main_v24 (ix3 b n g) = ix3 b n (⟨g.val + 1, by omega⟩ : Fin 16) := funext fun d => Fin.ext (by
    match d with
    | ⟨0, _⟩ => rfl
    | ⟨1, _⟩ => rfl
    | ⟨2, _⟩ => show 1 + g.val = g.val + 1; omega)
  rw [val_main_v24_apply, e, hid_apply]
  rfl

/-- The joined row at one of its first 16 entries is the direction entry. -/
theorem joined_left (x0 : (⟨S4096x128x4, .i32⟩ : BufTy).Contents (Elt Ideal)) (x1 : (⟨S4096x16, .f32⟩ : BufTy).Contents (Elt Ideal))
    (x2 : (⟨S524288x4, .f32⟩ : BufTy).Contents (Elt Ideal)) (x3 : (⟨S16x64, .f32⟩ : BufTy).Contents (Elt Ideal))
    (x4 : (⟨S64x16, .f32⟩ : BufTy).Contents (Elt Ideal)) (b : Fin 4096) (n : Fin 128) (a : Fin 16) :
    val_main_v27 (F := Ideal) x0 x1 x2 x3 x4 (ix3 b n (⟨a.val, by omega⟩ : Fin 31)) = x1 (ix2 b a) := by
  unfold val_main_v27
  refine (concatenate_pair_apply_left (2 : Fin S4096x128x31.rank) _ _
    Gen.concatenates_S4096x128x16_S4096x128x15_S4096x128x31_d2 (ix3 b n (⟨a.val, by omega⟩ : Fin 31)) rfl (ix3 b n a)
    (fun d => by match d with | ⟨0, _⟩ => rfl | ⟨1, _⟩ => rfl | ⟨2, _⟩ => rfl)).trans ?_
  exact dir_apply x1 b n a

/-- The joined row at one of its last 15 entries is the geometry entry. -/
theorem joined_right (x0 : (⟨S4096x128x4, .i32⟩ : BufTy).Contents (Elt Ideal)) (x1 : (⟨S4096x16, .f32⟩ : BufTy).Contents (Elt Ideal))
    (x2 : (⟨S524288x4, .f32⟩ : BufTy).Contents (Elt Ideal)) (x3 : (⟨S16x64, .f32⟩ : BufTy).Contents (Elt Ideal))
    (x4 : (⟨S64x16, .f32⟩ : BufTy).Contents (Elt Ideal)) (b : Fin 4096) (n : Fin 128) (g : Fin 15) :
    val_main_v27 (F := Ideal) x0 x1 x2 x3 x4 (ix3 b n (⟨16 + g.val, by omega⟩ : Fin 31))
      = geo (hid (mat x3) (mat x4) (fun f => val_main_v7 (F := Ideal) x0 x2 (ix3 b n f))) g := by
  unfold val_main_v27
  refine (concatenate_pair_apply_right (2 : Fin S4096x128x31.rank) _ _
    Gen.concatenates_S4096x128x16_S4096x128x15_S4096x128x31_d2 (ix3 b n (⟨16 + g.val, by omega⟩ : Fin 31)) rfl rfl (ix3 b n g)
    (fun d hd => by
      match d with
      | ⟨0, _⟩ => rfl
      | ⟨1, _⟩ => rfl
      | ⟨2, _⟩ => exact absurd rfl hd)
    (by show g.val + 16 = 16 + g.val; omega)).trans ?_
  exact geo_apply x0 x2 x3 x4 b n g

/-- The colour net's first layer before the larger-of-zero: the direction part plus the geometry part. -/
theorem first_apply (x0 : (⟨S4096x128x4, .i32⟩ : BufTy).Contents (Elt Ideal)) (x1 : (⟨S4096x16, .f32⟩ : BufTy).Contents (Elt Ideal))
    (x2 : (⟨S524288x4, .f32⟩ : BufTy).Contents (Elt Ideal)) (x3 : (⟨S16x64, .f32⟩ : BufTy).Contents (Elt Ideal))
    (x4 : (⟨S64x16, .f32⟩ : BufTy).Contents (Elt Ideal)) (x5 : (⟨S31x64, .f32⟩ : BufTy).Contents (Elt Ideal))
    (b : Fin 4096) (n : Fin 128) (i : Fin 64) :
    val_main_v28 (F := Ideal) x0 x1 x2 x3 x4 x5 (ix3 b n i)
      = (∑ a : Fin 16, x1 (ix2 b a) * top16 x5 a i)
        + ∑ g : Fin 15, geo (hid (mat x3) (mat x4) (fun f => val_main_v7 (F := Ideal) x0 x2 (ix3 b n f))) g * bot15 x5 g i := by
  have el : ∀ k : Fin 31, lidx_main_v28 (ix3 b n i) k = ix3 b n k := fun k => funext fun d => Fin.ext (by
    match d with | ⟨0, _⟩ => rfl | ⟨1, _⟩ => rfl | ⟨2, _⟩ => rfl)
  have er : ∀ k : Fin 31, ridx_main_v28 (ix3 b n i) k = ix2 k i := fun k => funext fun d => Fin.ext (by
    match d with | ⟨0, _⟩ => rfl | ⟨1, _⟩ => rfl)
  rw [val_main_v28_apply]
  simp only [el, er]
  rw [sum_sixteen_fifteen]
  refine congrArg₂ (· + ·) (Finset.sum_congr rfl fun a _ => ?_) (Finset.sum_congr rfl fun g _ => ?_)
  · rw [joined_left]; rfl
  · rw [joined_right]; rfl

/-- The colour net's second layer after the larger-of-zero. -/
theorem second_apply (x0 : (⟨S4096x128x4, .i32⟩ : BufTy).Contents (Elt Ideal)) (x1 : (⟨S4096x16, .f32⟩ : BufTy).Contents (Elt Ideal))
    (x2 : (⟨S524288x4, .f32⟩ : BufTy).Contents (Elt Ideal)) (x3 : (⟨S16x64, .f32⟩ : BufTy).Contents (Elt Ideal))
    (x4 : (⟨S64x16, .f32⟩ : BufTy).Contents (Elt Ideal)) (x5 : (⟨S31x64, .f32⟩ : BufTy).Contents (Elt Ideal))
    (x6 : (⟨S64x64, .f32⟩ : BufTy).Contents (Elt Ideal)) (b : Fin 4096) (n : Fin 128) (j : Fin 64) :
    val_main_v31 (F := Ideal) x0 x1 x2 x3 x4 x5 x6 (ix3 b n j)
      = relu (∑ i : Fin 64, relu ((∑ a : Fin 16, x1 (ix2 b a) * top16 x5 a i)
          + ∑ g : Fin 15, geo (hid (mat x3) (mat x4) (fun f => val_main_v7 (F := Ideal) x0 x2 (ix3 b n f))) g * bot15 x5 g i) * mat x6 i j) := by
  have el : ∀ k : Fin 64, lidx_main_v30 (ix3 b n j) k = ix3 b n k := fun k => funext fun d => Fin.ext (by
    match d with | ⟨0, _⟩ => rfl | ⟨1, _⟩ => rfl | ⟨2, _⟩ => rfl)
  have er : ∀ k : Fin 64, ridx_main_v30 (ix3 b n j) k = ix2 k j := fun k => funext fun d => Fin.ext (by
    match d with | ⟨0, _⟩ => rfl | ⟨1, _⟩ => rfl)
  have h29 : ∀ k : Fin 64, val_main_v29 (F := Ideal) x0 x1 x2 x3 x4 x5 (ix3 b n k)
      = relu ((∑ a : Fin 16, x1 (ix2 b a) * top16 x5 a k)
          + ∑ g : Fin 15, geo (hid (mat x3) (mat x4) (fun f => val_main_v7 (F := Ideal) x0 x2 (ix3 b n f))) g * bot15 x5 g k) := fun k => by
    rw [val_main_v29_apply, first_apply, val_main_call1_v0_apply, val_main_call1_cst_apply]
    rfl
  rw [val_main_v31_apply, val_main_v30_apply, val_main_call2_v0_apply, val_main_call2_cst_apply]
  simp only [el, er, h29]
  rfl

/-- The colour net's third product. -/
theorem third_apply (x0 : (⟨S4096x128x4, .i32⟩ : BufTy).Contents (Elt Ideal)) (x1 : (⟨S4096x16, .f32⟩ : BufTy).Contents (Elt Ideal))
    (x2 : (⟨S524288x4, .f32⟩ : BufTy).Contents (Elt Ideal)) (x3 : (⟨S16x64, .f32⟩ : BufTy).Contents (Elt Ideal))
    (x4 : (⟨S64x16, .f32⟩ : BufTy).Contents (Elt Ideal)) (x5 : (⟨S31x64, .f32⟩ : BufTy).Contents (Elt Ideal))
    (x6 : (⟨S64x64, .f32⟩ : BufTy).Contents (Elt Ideal)) (x7 : (⟨S64x3, .f32⟩ : BufTy).Contents (Elt Ideal)) (b : Fin 4096) (n : Fin 128) (c : Fin 3) :
    val_main_v32 (F := Ideal) x0 x1 x2 x3 x4 x5 x6 x7 (ix3 b n c)
      = ∑ j : Fin 64, relu (∑ i : Fin 64, relu ((∑ a : Fin 16, x1 (ix2 b a) * top16 x5 a i)
          + ∑ g : Fin 15, geo (hid (mat x3) (mat x4) (fun f => val_main_v7 (F := Ideal) x0 x2 (ix3 b n f))) g * bot15 x5 g i) * mat x6 i j) * mat x7 j c := by
  have el : ∀ k : Fin 64, lidx_main_v32 (ix3 b n c) k = ix3 b n k := fun k => funext fun d => Fin.ext (by
    match d with | ⟨0, _⟩ => rfl | ⟨1, _⟩ => rfl | ⟨2, _⟩ => rfl)
  have er : ∀ k : Fin 64, ridx_main_v32 (ix3 b n c) k = ix2 k c := fun k => funext fun d => Fin.ext (by
    match d with | ⟨0, _⟩ => rfl | ⟨1, _⟩ => rfl)
  rw [val_main_v32_apply]
  simp only [el, er, second_apply]
  rfl

theorem color_apply (x0 : (⟨S4096x128x4, .i32⟩ : BufTy).Contents (Elt Ideal)) (x1 : (⟨S4096x16, .f32⟩ : BufTy).Contents (Elt Ideal))
    (x2 : (⟨S524288x4, .f32⟩ : BufTy).Contents (Elt Ideal))
    (x3 : (⟨S16x64, .f32⟩ : BufTy).Contents (Elt Ideal)) (x4 : (⟨S64x16, .f32⟩ : BufTy).Contents (Elt Ideal))
    (x5 : (⟨S31x64, .f32⟩ : BufTy).Contents (Elt Ideal)) (x6 : (⟨S64x64, .f32⟩ : BufTy).Contents (Elt Ideal))
    (x7 : (⟨S64x3, .f32⟩ : BufTy).Contents (Elt Ideal)) (b : Fin 4096) (n : Fin 128) (c : Fin 3) :
    val_main_v38 (F := Ideal) x0 x1 x2 x3 x4 x5 x6 x7 (ix3 b n c)
      = colorAt (val_main_v7 (F := Ideal) x0 x2) x1 (mat x3) (mat x4) (top16 x5) (bot15 x5) (mat x6) (mat x7) b n c := by
  rw [val_main_v38_apply, val_main_v37_apply, val_main_cst_4_apply, val_main_v36_apply, val_main_v35_apply,
    val_main_cst_3_apply, val_main_v34_apply, val_main_v33_apply, third_apply]
  exact Cert.LibGateFunctions.logistic_quotient _

end Cert.Ref

end
-- ==== Proof.Assemble.lean ====
/-
  The two programs compute the same densities and the same colours.

  The kernel's program leaves, in its density result, the function `Gσ` of the arrays its region finds, and in its colour
  result the swap of the last two axes of `Gκ`. Those arrays are: the feature array, which is the reference program's own
  feature array of the same arguments; the direction array and five weight matrices, untouched arguments; and the first 16
  and last 15 rows of the colour net's first matrix. The reference's results, read entry by entry, are the same sample-by-
  sample functions: its densities are the softmax over each ray of the density net's first output, and its colour net's
  first layer, one product with the 31-row matrix of the direction numbers joined to the geometry numbers, is the sum of
  the product with the first 16 rows and the product with the last 15. Sums and products of extended reals are commutative
  and associative, so nothing here depends on the inputs being finite.
-/
import proofs.«169917_j38139309589096_2_alg».proof.Defs
import proofs.«169917_j38139309589096_2_alg».proof.Proof.Final
import proofs.«169917_j38139309589096_2_alg».proof.Proof.KRun
import proofs.«169917_j38139309589096_2_alg».proof.Proof.KHost
import proofs.«169917_j38139309589096_2_alg».proof.Proof.PaySigma
import proofs.«169917_j38139309589096_2_alg».proof.Proof.PayColor
import proofs.«169917_j38139309589096_2_alg».proof.Proof.RefSigma
import proofs.«169917_j38139309589096_2_alg».proof.Proof.RefColor
import proofs.«169917_j38139309589096_2_alg».proof.Proof.Gen.ReferenceIdeal.Run
import proofs.«169917_j38139309589096_2_alg».proof.Proof.Gen.Pre_finite_inputs
import proofs.«169917_j38139309589096_2_alg».proof.Proof.Gen.ReferenceIdeal
import proofs.«169917_j38139309589096_2_alg».proof.Proof.Gen.ReferenceIdeal.Read

noncomputable section

namespace Cert.Assemble

open Idealize.ShloMosaic Idealize.ShloMosaic.TcCoe Idealize.ShloMosaic.ValueIdx Idealize.SL.Sem
open Cert.KernelIdeal Cert.KernelIdeal.Gen Cert.KernelIdeal.Final Cert.KernelIdeal.HostSide Cert.Spec

/-- The kernel's density arithmetic, entry by entry. -/
theorem sigmaFact : Cert.KernelIdeal.Block.SigmaFact := Cert.Pay.sigma_apply
/-- The kernel's colour arithmetic, entry by entry. -/
theorem colorFact : Cert.KernelIdeal.Block.ColorFact := Cert.Pay.color_apply

variable (m : (ℓ : Loc nD τ sig) → Buf (Elt Ideal) ℓ) (ρ : Dev nD → PrngReg)

/-- The kernel's program ends with its density result at `Gσ`, its colour result at the axis swap of `Gκ`, and its
    arguments unchanged. -/
theorem kernel_run : θ_run defs (onTc (τ := τ) (main (F := Ideal))) ⟨m, fun _ => 0, ρ⟩ (fun r => ∀ c : Dev nD,
      r.2.mem ((c.tc : Thread nD τ).loc main_v11_0) = Gσ m c
      ∧ r.2.mem ((c.tc : Thread nD τ).loc main_v12)
          = transpose S4096x128x3 [0, 2, 1] (Gκ m c) transposes_S4096x3x128_S4096x128x3_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (final8 m sigmaFact c),
      (h c).2.1.trans (congrArg (fun v => transpose S4096x128x3 [0, 2, 1] v transposes_S4096x3x128_S4096x128x3_0_2_1)
        (final9 m colorFact c)),
      (h c).2.2⟩) (Cert.KernelIdeal.RunNamed.run_named m ρ)

/-- The reference's densities of the kernel's arguments are `Gσ`. -/
theorem sigma_bridge (c : Dev nD) :
    Cert.ReferenceIdeal.Read.val_main_v23 (F := Ideal) (m ((c : Thread nD τ).loc main_arg0))
        (m ((c : Thread nD τ).loc main_arg2)) (m ((c : Thread nD τ).loc main_arg3)) (m ((c : Thread nD τ).loc main_arg4))
      = Gσ m c := by
  funext i
  obtain ⟨b, n, rfl⟩ : ∃ (b : Fin 4096) (n : Fin 128), i = ix2 b n := ⟨i 0, i 1, eq_ix2 i⟩
  rw [Cert.Ref.sigma_apply]
  show _ = sigmaAt (V m c main_v8) (mat (V m c main_arg3)) (mat (V m c main_arg4)) b n
  rw [feat_eq m c, V_main_arg3, V_main_arg4]

/-- The reference's colours of the kernel's arguments are the axis swap of `Gκ`. -/
theorem color_bridge (c : Dev nD) :
    Cert.ReferenceIdeal.Read.val_main_v38 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7))
      = transpose S4096x128x3 [0, 2, 1] (Gκ m c) transposes_S4096x3x128_S4096x128x3_0_2_1 := by
  funext i
  obtain ⟨b, n, k, rfl⟩ : ∃ (b : Fin 4096) (n : Fin 128) (k : Fin 3), i = ix3 b n k := ⟨i 0, i 1, i 2, eq_ix3 i⟩
  rw [Cert.Ref.color_apply, tail_apply]
  show _ = colorAt (V m c main_v8) (V m c main_arg1) (mat (V m c main_arg3)) (mat (V m c main_arg4)) (mat (V m c main_v9))
    (mat (V m c main_v10)) (mat (V m c main_arg6)) (mat (V m c main_arg7)) b n k
  rw [feat_eq m c, top_eq m c, bot_eq m c, V_main_arg1, V_main_arg3, V_main_arg4, V_main_arg6, V_main_arg7]

/-- From memories agreeing on the arguments both programs run and end with equal results. -/
theorem algebraic : Cert.algebraic_KernelIdeal_ReferenceIdeal := by
  intro m ρ m' ρ' _ hagree
  refine ⟨fun c => Gσ m c,
    fun c => transpose S4096x128x3 [0, 2, 1] (Gκ m c) transposes_S4096x3x128_S4096x128x3_0_2_1, kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v23_eq, h0, h2, h3, h4]
    exact sigma_bridge m c
  · obtain ⟨h0, h1, h2, h3, h4, h5, h6, h7⟩ := hagree c
    rw [h0, h1, h2, h3, h4, h5, h6, h7]
    exact (Cert.ReferenceIdeal.Read.val_main_v38_eq _ _ _ _ _ _ _ _).trans (color_bridge m c)

end Cert.Assemble

end
-- ==== Proof.lean ====
/-
  A neural radiance field's two small networks, evaluated by a tiled kernel and by a plain array program: the two compute
  the same densities and colours over the extended reals.

  Every sample looks up four rows of a feature table and lays them side by side (16 features). A density net (16 → 64 → 16,
  the larger-of-zero in between) gives each sample a logit and 15 geometry numbers; a ray's 128 logits go through a softmax,
  shifted by their maximum, which gives the densities. A colour net (31 → 64 → 64 → 3, then the logistic function) takes the
  ray's 16 direction numbers joined to the sample's 15 geometry numbers.

  The kernel gathers the features on the host, then visits the 4096 rays in 32 grid points of 128 rays, and inside a point
  in 8 chunks of 16 rays; it multiplies the direction part and the geometry part of the colour net's first layer separately
  and adds the products, stores the colours channel-major, and swaps the axes back on the host. The proof reads each chunk's
  stores as functions of the rays' own rows (Trip, Block), glues chunks to blocks and blocks to arrays (Block, Final), reads
  the host operations around the region (KRun, KHost), reads the reference entry by entry (RefHid, RefSigma, RefColor), and
  matches the two sample by sample against one specification (Spec, Assemble). The only law used between the two sides is
  that a sum over 31 terms is the sum of its first 16 and its last 15; sums and products of extended reals are commutative
  and associative, so the inputs' finiteness is never needed.

  The three frame claims are the generated frame certificates of the two kernel programs and the reference's generated run
  with its results dropped; the idealization rewrote nothing, so there is nothing to preserve.
-/
import proofs.«169917_j38139309589096_2_alg».proof.Defs
import proofs.«169917_j38139309589096_2_alg».proof.Proof.Gen.Kernel
import proofs.«169917_j38139309589096_2_alg».proof.Proof.Gen.Kernel.Skeleton
import proofs.«169917_j38139309589096_2_alg».proof.Proof.Gen.Kernel.Loops
import proofs.«169917_j38139309589096_2_alg».proof.Proof.Gen.Kernel.Launch
import proofs.«169917_j38139309589096_2_alg».proof.Proof.Gen.Kernel.Points
import proofs.«169917_j38139309589096_2_alg».proof.Proof.Gen.Kernel.Frame
import proofs.«169917_j38139309589096_2_alg».proof.Proof.Gen.KernelIdeal
import proofs.«169917_j38139309589096_2_alg».proof.Proof.Gen.KernelIdeal.Skeleton
import proofs.«169917_j38139309589096_2_alg».proof.Proof.Gen.KernelIdeal.Loops
import proofs.«169917_j38139309589096_2_alg».proof.Proof.Gen.KernelIdeal.Launch
import proofs.«169917_j38139309589096_2_alg».proof.Proof.Gen.KernelIdeal.Points
import proofs.«169917_j38139309589096_2_alg».proof.Proof.Gen.KernelIdeal.Frame
import proofs.«169917_j38139309589096_2_alg».proof.Proof.Gen.ReferenceIdeal
import proofs.«169917_j38139309589096_2_alg».proof.Proof.Gen.Pre_finite_inputs
import proofs.«169917_j38139309589096_2_alg».proof.Proof.Gen.ReferenceIdeal.Run
import proofs.«169917_j38139309589096_2_alg».proof.Proof.Gen.ReferenceIdeal.Read
import proofs.«169917_j38139309589096_2_alg».proof.Proof.Assemble
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Assemble.algebraic⟩

end Cert.Proof

end
